-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x512 : Shape := ⟨2, ![512, 512]⟩
abbrev S1024x1024 : Shape := ⟨2, ![1024, 1024]⟩
abbrev S256x256 : Shape := ⟨2, ![256, 256]⟩
abbrev S768x768 : Shape := ⟨2, ![768, 768]⟩
abbrev S384x384 : Shape := ⟨2, ![384, 384]⟩
abbrev S640x640 : Shape := ⟨2, ![640, 640]⟩
abbrev S128x128 : Shape := ⟨2, ![128, 128]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x256 : S_.BroadcastsInDim S256x256 (![] : Fin 0 → Fin S256x256.rank)
  reducesTo_S256x256_S_d0_1 : S256x256.ReducesTo [0, 1] S_
  bcast_S_S768x768 : S_.BroadcastsInDim S768x768 (![] : Fin 0 → Fin S768x768.rank)
  reducesTo_S768x768_S_d0_1 : S768x768.ReducesTo [0, 1] S_
  bcast_S_S384x384 : S_.BroadcastsInDim S384x384 (![] : Fin 0 → Fin S384x384.rank)
  reducesTo_S384x384_S_d0_1 : S384x384.ReducesTo [0, 1] S_
  bcast_S_S640x640 : S_.BroadcastsInDim S640x640 (![] : Fin 0 → Fin S640x640.rank)
  reducesTo_S640x640_S_d0_1 : S640x640.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S384x384 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S384x384 .f32 := Host.absf main_arg8
  let main_cst_14 : FVec F S_ .f32 := constant S_ .f32 0x7F800000#32
  let main_v40 : FVec F S384x384 .f32 := broadcastInDim S384x384 ![] bcast_S_S384x384 main_cst_14
  let main_v41 : IVec S384x384 1 := cmpf .olt main_v39 main_v40
  let main_c_15 : IVec S_ 1 := constantI S_ 1 1#1
  let main_v42 : IVec S_ 1 := (fun x v => Host.reduce IntOp.andi x v reducesTo_S384x384_S_d0_1 h_S_) main_v41 main_c_15
  let main_v43 : IVec S_ 1 := andi main_v38 main_v42
  main_v43

def fn_part1 {F : FTy → Type} [FloatOps F] (main_arg4 : FVec F S768x768 .f32) (main_arg5 : FVec F S384x384 .f32) (main_arg6 : FVec F S640x640 .f32) (main_arg7 : FVec F S128x128 .f32) (main_arg8 : FVec F S384x384 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S384x384 .f32 := Host.absf main_arg5
  let main_cst_8 : FVec F S_ .f32 := constant S_ .f32 0x7F800000#32
  let main_v25 : FVec F S384x384 .f32 := broadcastInDim S384x384 ![] bcast_S_S384x384 main_cst_8
  let main_v26 : IVec S384x384 1 := cmpf .olt main_v24 main_v25
  let main_c_9 : IVec S_ 1 := constantI S_ 1 1#1
  let main_v27 : IVec S_ 1 := (fun x v => Host.reduce IntOp.andi x v reducesTo_S384x384_S_d0_1 h_S_) main_v26 main_c_9
  let main_v28 : IVec S_ 1 := andi main_v23 main_v27
  let main_v29 : FVec F S640x640 .f32 := Host.absf main_arg6
  let main_cst_10 : FVec F S_ .f32 := constant S_ .f32 0x7F800000#32
  let main_v30 : FVec F S640x640 .f32 := broadcastInDim S640x640 ![] bcast_S_S640x640 main_cst_10
  let main_v31 : IVec S640x640 1 := cmpf .olt main_v29 main_v30
  let main_c_11 : IVec S_ 1 := constantI S_ 1 1#1
  let main_v32 : IVec S_ 1 := (fun x v => Host.reduce IntOp.andi x v reducesTo_S640x640_S_d0_1 h_S_) main_v31 main_c_11
  let main_v33 : IVec S_ 1 := andi main_v28 main_v32
  fn_part2 (F := F) main_arg7 main_arg8 main_v33

def fn {F : FTy → Type} [FloatOps F] (main_arg0 : FVec F S4x2048x4096 .f32) (main_arg1 : FVec F S512x512 .f32) (main_arg2 : FVec F S1024x1024 .f32) (main_arg3 : FVec F S256x256 .f32) (main_arg4 : FVec F S768x768 .f32) (main_arg5 : FVec F S384x384 .f32) (main_arg6 : FVec F S640x640 .f32) (main_arg7 : FVec F S128x128 .f32) (main_arg8 : FVec F S384x384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S4x2048x4096 : Shape := ⟨3, ![4, 2048, 4096]⟩
abbrev S512x512 : Shape := ⟨2, ![512, 512]⟩
abbrev S1024x1024 : Shape := ⟨2, ![1024, 1024]⟩
abbrev S256x256 : Shape := ⟨2, ![256, 256]⟩
abbrev S768x768 : Shape := ⟨2, ![768, 768]⟩
abbrev S384x384 : Shape := ⟨2, ![384, 384]⟩
abbrev S640x640 : Shape := ⟨2, ![640, 640]⟩
abbrev S128x128 : Shape := ⟨2, ![128, 128]⟩
abbrev S8192x4096 : Shape := ⟨2, ![8192, 4096]⟩
abbrev S256x4096 : Shape := ⟨2, ![256, 4096]⟩
abbrev S256x512 : Shape := ⟨2, ![256, 512]⟩
abbrev S256x1024 : Shape := ⟨2, ![256, 1024]⟩
abbrev S256x768 : Shape := ⟨2, ![256, 768]⟩
abbrev S256x384 : Shape := ⟨2, ![256, 384]⟩
abbrev S256x640 : Shape := ⟨2, ![256, 640]⟩
abbrev S256x128 : Shape := ⟨2, ![256, 128]⟩

abbrev nBuf : Space → Nat
  | .hbm => 28
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S512x512, .f32⟩
  | .hbm, ⟨2, _⟩ => ⟨S1024x1024, .f32⟩
  | .hbm, ⟨3, _⟩ => ⟨S256x256, .f32⟩
  | .hbm, ⟨4, _⟩ => ⟨S768x768, .f32⟩
  | .hbm, ⟨5, _⟩ => ⟨S384x384, .f32⟩
  | .hbm, ⟨6, _⟩ => ⟨S640x640, .f32⟩
  | .hbm, ⟨7, _⟩ => ⟨S128x128, .f32⟩
  | .hbm, ⟨8, _⟩ => ⟨S384x384, .f32⟩
  | .hbm, ⟨9, _⟩ => ⟨S8192x4096, .f32⟩
  | .hbm, ⟨10, _⟩ => ⟨S512x512, .f32⟩
  | .hbm, ⟨11, _⟩ => ⟨S512x512, .bf16⟩
  | .hbm, ⟨12, _⟩ => ⟨S1024x1024, .f32⟩
  | .hbm, ⟨13, _⟩ => ⟨S1024x1024, .bf16⟩
  | .hbm, ⟨14, _⟩ => ⟨S256x256, .f32⟩
  | .hbm, ⟨15, _⟩ => ⟨S256x256, .bf16⟩
  | .hbm, ⟨16, _⟩ => ⟨S768x768, .f32⟩
  | .hbm, ⟨17, _⟩ => ⟨S768x768, .bf16⟩
  | .hbm, ⟨18, _⟩ => ⟨S384x384, .f32⟩
  | .hbm, ⟨19, _⟩ => ⟨S384x384, .bf16⟩
  | .hbm, ⟨20, _⟩ => ⟨S640x640, .f32⟩
  | .hbm, ⟨21, _⟩ => ⟨S640x640, .bf16⟩
  | .hbm, ⟨22, _⟩ => ⟨S128x128, .f32⟩
  | .hbm, ⟨23, _⟩ => ⟨S128x128, .bf16⟩
  | .hbm, ⟨24, _⟩ => ⟨S384x384, .f32⟩
  | .hbm, ⟨25, _⟩ => ⟨S384x384, .bf16⟩
  | .hbm, ⟨26, _⟩ => ⟨S8192x4096, .f32⟩
  | .hbm, ⟨27, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S512x512, .bf16⟩
  | .local _ .vmem, ⟨3, _⟩ => ⟨S1024x1024, .bf16⟩
  | .local _ .vmem, ⟨4, _⟩ => ⟨S256x256, .bf16⟩
  | .local _ .vmem, ⟨5, _⟩ => ⟨S768x768, .bf16⟩
  | .local _ .vmem, ⟨6, _⟩ => ⟨S384x384, .bf16⟩
  | .local _ .vmem, ⟨7, _⟩ => ⟨S640x640, .bf16⟩
  | .local _ .vmem, ⟨8, _⟩ => ⟨S128x128, .bf16⟩
  | .local _ .vmem, ⟨9, _⟩ => ⟨S384x384, .bf16⟩
  | .local _ .vmem, ⟨10, _⟩ => ⟨S256x4096, .f32⟩
  | .local _ .vmem, ⟨11, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4x2048x4096_S8192x4096 : S4x2048x4096.ShapeCasts S8192x4096
  transposes_S512x512_S512x512_1_0 : S512x512.Transposes [1, 0] S512x512
  bitsLt_bf16_f32 : FTy.bits .bf16 < FTy.bits .f32
  transposes_S1024x1024_S1024x1024_1_0 : S1024x1024.Transposes [1, 0] S1024x1024
  transposes_S256x256_S256x256_1_0 : S256x256.Transposes [1, 0] S256x256
  transposes_S768x768_S768x768_1_0 : S768x768.Transposes [1, 0] S768x768
  transposes_S384x384_S384x384_1_0 : S384x384.Transposes [1, 0] S384x384
  transposes_S640x640_S640x640_1_0 : S640x640.Transposes [1, 0] S640x640
  transposes_S128x128_S128x128_1_0 : S128x128.Transposes [1, 0] S128x128
  inb_S256x4096_S256x512_0_0 : ∀ a, (![0, 0] : Fin 2 → Nat) a + S256x512.size a ≤ S256x4096.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x4096_S256x1024_0_512 : ∀ a, (![0, 512] : Fin 2 → Nat) a + S256x1024.size a ≤ S256x4096.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x4096_S256x256_0_1536 : ∀ a, (![0, 1536] : Fin 2 → Nat) a + S256x256.size a ≤ S256x4096.size a
  h_S256x256 : 0 < S256x256.numel
  shapeCasts_S256x256_S256x256 : S256x256.ShapeCasts S256x256
  inb_S256x256_S256x256_0_0 : ∀ a, (![0, 0] : Fin 2 → Nat) a + S256x256.size a ≤ S256x256.size a
  inb_S256x4096_S256x768_0_1792 : ∀ a, (![0, 1792] : Fin 2 → Nat) a + S256x768.size a ≤ S256x4096.size a
  h_S256x768 : 0 < S256x768.numel
  shapeCasts_S256x768_S256x768 : S256x768.ShapeCasts S256x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S256x4096_S256x384_0_2560 : ∀ a, (![0, 2560] : Fin 2 → Nat) a + S256x384.size a ≤ S256x4096.size a
  h_S256x384 : 0 < S256x384.numel
  shapeCasts_S256x384_S256x384 : S256x384.ShapeCasts S256x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S256x4096_S256x640_0_2944 : ∀ a, (![0, 2944] : Fin 2 → Nat) a + S256x640.size a ≤ S256x4096.size a
  h_S256x640 : 0 < S256x640.numel
  shapeCasts_S256x640_S256x640 : S256x640.ShapeCasts S256x640
  inb_S640x640_S640x640_0_0 : ∀ a, (![0, 0] : Fin 2 → Nat) a + S640x640.size a ≤ S640x640.size a
  h_S640x640 : 0 < S640x640.numel
  shapeCasts_S640x640_S640x640 : S640x640.ShapeCasts S640x640
  inb_S256x4096_S256x128_0_3584 : ∀ a, (![0, 3584] : Fin 2 → Nat) a + S256x128.size a ≤ S256x4096.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S256x4096_S256x384_0_3712 : ∀ a, (![0, 3712] : Fin 2 → Nat) a + S256x384.size a ≤ S256x4096.size a
  shapeCasts_S8192x4096_S4x2048x4096 : S8192x4096.ShapeCasts S4x2048x4096
  dot_S256x512_S512x512_S256x512_1_0_0_1_n_n_wf : DotDims.WF S256x512 S512x512 S256x512 [1] [0] [0] [1] [] []
  dot_S256x1024_S1024x1024_S256x1024_1_0_0_1_n_n_wf : DotDims.WF S256x1024 S1024x1024 S256x1024 [1] [0] [0] [1] [] []
  dot_S256x256_S256x256_S256x256_1_0_0_1_n_n_wf : DotDims.WF S256x256 S256x256 S256x256 [1] [0] [0] [1] [] []
  dot_S256x768_S768x768_S256x768_1_0_0_1_n_n_wf : DotDims.WF S256x768 S768x768 S256x768 [1] [0] [0] [1] [] []
  dot_S256x384_S384x384_S256x384_1_0_0_1_n_n_wf : DotDims.WF S256x384 S384x384 S256x384 [1] [0] [0] [1] [] []
  dot_S256x640_S640x640_S256x640_1_0_0_1_n_n_wf : DotDims.WF S256x640 S640x640 S256x640 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x384.size a ≤ S384x384.size a
  hwx0_5 : ∀ i : grid0.Coords, EltTy.bits .bf16 = 32 ∨ (Rect.block (s := S384x384) S384x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x640.size a ≤ S640x640.size a
  hwx0_6 : ∀ i : grid0.Coords, EltTy.bits .bf16 = 32 ∨ (Rect.block (s := S640x640) S640x640.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384x384.size a ≤ S384x384.size a
  hwx0_8 : ∀ i : grid0.Coords, EltTy.bits .bf16 = 32 ∨ (Rect.block (s := S384x384) S384x384.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x4096.size a ≤ S8192x4096.size a
  hwx0_9 : ∀ i : grid0.Coords, EltTy.bits .f32 = 32 ∨ (Rect.block (s := S8192x4096) S256x4096.size (cc0_transform_9 i) (hinb0_9 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S256x384_S384x384_S256x384_1_0_0_1_n_n : DotDims S256x384 S384x384 S256x384 where
  lhsContracting := [1]
  rhsContracting := [0]
  lhsNonContracting := [0]
  rhsNonContracting := [1]
  lhsBatch := []
  rhsBatch := []
  wf := dot_S256x384_S384x384_S256x384_1_0_0_1_n_n_wf
def dot_S256x640_S640x640_S256x640_1_0_0_1_n_n : DotDims S256x640 S640x640 S256x640 where
  lhsContracting := [1]
  rhsContracting := [0]
  lhsNonContracting := [0]
  rhsNonContracting := [1]
  lhsBatch := []
  rhsBatch := []
  wf := dot_S256x640_S640x640_S256x640_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S384x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S640x640.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S384x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S256x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S512x512 : Shape := ⟨2, ![512, 512]⟩
abbrev S1024x1024 : Shape := ⟨2, ![1024, 1024]⟩
abbrev S256x256 : Shape := ⟨2, ![256, 256]⟩
abbrev S768x768 : Shape := ⟨2, ![768, 768]⟩
abbrev S384x384 : Shape := ⟨2, ![384, 384]⟩
abbrev S640x640 : Shape := ⟨2, ![640, 640]⟩
abbrev S128x128 : Shape := ⟨2, ![128, 128]⟩
abbrev S4x2048x512 : Shape := ⟨3, ![4, 2048, 512]⟩
abbrev S4x2048x1024 : Shape := ⟨3, ![4, 2048, 1024]⟩
abbrev S4x2048x256 : Shape := ⟨3, ![4, 2048, 256]⟩
abbrev S4x2048x768 : Shape := ⟨3, ![4, 2048, 768]⟩
abbrev S4x2048x384 : Shape := ⟨3, ![4, 2048, 384]⟩
abbrev S4x2048x640 : Shape := ⟨3, ![4, 2048, 640]⟩
abbrev S4x2048x128 : Shape := ⟨3, ![4, 2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x512, .f32⟩
  | .hbm, ⟨2, _⟩ => ⟨S1024x1024, .f32⟩
  | .hbm, ⟨3, _⟩ => ⟨S256x256, .f32⟩
  | .hbm, ⟨4, _⟩ => ⟨S768x768, .f32⟩
  | .hbm, ⟨5, _⟩ => ⟨S384x384, .f32⟩
  | .hbm, ⟨6, _⟩ => ⟨S640x640, .f32⟩
  | .hbm, ⟨7, _⟩ => ⟨S128x128, .f32⟩
  | .hbm, ⟨8, _⟩ => ⟨S384x384, .f32⟩
  | .hbm, ⟨9, _⟩ => ⟨S4x2048x512, .f32⟩
  | .hbm, ⟨10, _⟩ => ⟨S4x2048x512, .f32⟩
  | .hbm, ⟨11, _⟩ => ⟨S4x2048x1024, .f32⟩
  | .hbm, ⟨12, _⟩ => ⟨S4x2048x1024, .f32⟩
  | .hbm, ⟨13, _⟩ => ⟨S4x2048x256, .f32⟩
  | .hbm, ⟨14, _⟩ => ⟨S4x2048x256, .f32⟩
  | .hbm, ⟨15, _⟩ => ⟨S4x2048x768, .f32⟩
  | .hbm, ⟨16, _⟩ => ⟨S4x2048x768, .f32⟩
  | .hbm, ⟨17, _⟩ => ⟨S4x2048x384, .f32⟩
  | .hbm, ⟨18, _⟩ => ⟨S4x2048x384, .f32⟩
  | .hbm, ⟨19, _⟩ => ⟨S4x2048x640, .f32⟩
  | .hbm, ⟨20, _⟩ => ⟨S4x2048x640, .f32⟩
  | .hbm, ⟨21, _⟩ => ⟨S4x2048x128, .f32⟩
  | .hbm, ⟨22, _⟩ => ⟨S4x2048x128, .f32⟩
  | .hbm, ⟨23, _⟩ => ⟨S4x2048x384, .f32⟩
  | .hbm, ⟨24, _⟩ => ⟨S4x2048x384, .f32⟩
  | .hbm, ⟨25, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  slices_S4x2048x4096_S4x2048x512_0_0_0 : S4x2048x4096.Slices ![0, 0, 0] S4x2048x512
  slices_S4x2048x4096_S4x2048x1024_0_0_512 : S4x2048x4096.Slices ![0, 0, 512] S4x2048x1024
  slices_S4x2048x4096_S4x2048x256_0_0_1536 : S4x2048x4096.Slices ![0, 0, 1536] S4x2048x256
  slices_S4x2048x4096_S4x2048x768_0_0_1792 : S4x2048x4096.Slices ![0, 0, 1792] S4x2048x768
  slices_S4x2048x4096_S4x2048x384_0_0_2560 : S4x2048x4096.Slices ![0, 0, 2560] S4x2048x384
  slices_S4x2048x4096_S4x2048x640_0_0_2944 : S4x2048x4096.Slices ![0, 0, 2944] S4x2048x640
  slices_S4x2048x4096_S4x2048x128_0_0_3584 : S4x2048x4096.Slices ![0, 0, 3584] S4x2048x128
  slices_S4x2048x4096_S4x2048x384_0_0_3712 : S4x2048x4096.Slices ![0, 0, 3712] S4x2048x384
  concatenates_S4x2048x512_S4x2048x1024_S4x2048x256_S4x2048x768_S4x2048x384_S4x2048x640_S4x2048x128_S4x2048x384_S4x2048x4096_d2 : Shape.Concatenates [S4x2048x512, S4x2048x1024, S4x2048x256, S4x2048x768, S4x2048x384, S4x2048x640, S4x2048x128, S4x2048x384] S4x2048x4096 2
  dot_S4x2048x512_S512x512_S4x2048x512_2_1_01_0_n_n_wf : DotDims.WF S4x2048x512 S512x512 S4x2048x512 [2] [1] [0, 1] [0] [] []
  dot_S4x2048x1024_S1024x1024_S4x2048x1024_2_1_01_0_n_n_wf : DotDims.WF S4x2048x1024 S1024x1024 S4x2048x1024 [2] [1] [0, 1] [0] [] []
  dot_S4x2048x256_S256x256_S4x2048x256_2_1_01_0_n_n_wf : DotDims.WF S4x2048x256 S256x256 S4x2048x256 [2] [1] [0, 1] [0] [] []
  dot_S4x2048x768_S768x768_S4x2048x768_2_1_01_0_n_n_wf : DotDims.WF S4x2048x768 S768x768 S4x2048x768 [2] [1] [0, 1] [0] [] []
  dot_S4x2048x384_S384x384_S4x2048x384_2_1_01_0_n_n_wf : DotDims.WF S4x2048x384 S384x384 S4x2048x384 [2] [1] [0, 1] [0] [] []
  dot_S4x2048x640_S640x640_S4x2048x640_2_1_01_0_n_n_wf : DotDims.WF S4x2048x640 S640x640 S4x2048x640 [2] [1] [0, 1] [0] [] []
  dot_S4x2048x128_S128x128_S4x2048x128_2_1_01_0_n_n_wf : DotDims.WF S4x2048x128 S128x128 S4x2048x128 [2] [1] [0, 1] [0] [] []

variable [Facts₀]

def dot_S4x2048x512_S512x512_S4x2048x512_2_1_01_0_n_n : DotDims S4x2048x512 S512x512 S4x2048x512 where
  lhsContracting := [2]
  rhsContracting := [1]
  lhsNonContracting := [0, 1]
  rhsNonContracting := [0]
  lhsBatch := []
  rhsBatch := []
  wf := dot_S4x2048x512_S512x512_S4x2048x512_2_1_01_0_n_n_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x256_S256x256_S4x2048x256_2_1_01_0_n_n : DotDims S4x2048x256 S256x256 S4x2048x256 where
  lhsContracting := [2]
  rhsContracting := [1]
  lhsNonContracting := [0, 1]
  rhsNonContracting := [0]
  lhsBatch := []
  rhsBatch := []
  wf := dot_S4x2048x256_S256x256_S4x2048x256_2_1_01_0_n_n_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf
def dot_S4x2048x384_S384x384_S4x2048x384_2_1_01_0_n_n : DotDims S4x2048x384 S384x384 S4x2048x384 where
  lhsContracting := [2]
  rhsContracting := [1]
  lhsNonContracting := [0, 1]
  rhsNonContracting := [0]
  lhsBatch := []
  rhsBatch := []
  wf := dot_S4x2048x384_S384x384_S4x2048x384_2_1_01_0_n_n_wf
def dot_S4x2048x640_S640x640_S4x2048x640_2_1_01_0_n_n : DotDims S4x2048x640 S640x640 S4x2048x640 where
  lhsContracting := [2]
  rhsContracting := [1]
  lhsNonContracting := [0, 1]
  rhsNonContracting := [0]
  lhsBatch := []
  rhsBatch := []
  wf := dot_S4x2048x640_S640x640_S4x2048x640_2_1_01_0_n_n_wf
def dot_S4x2048x128_S128x128_S4x2048x128_2_1_01_0_n_n : DotDims S4x2048x128 S128x128 S4x2048x128 where
  lhsContracting := [2]
  rhsContracting := [1]
  lhsNonContracting := [0, 1]
  rhsNonContracting := [0]
  lhsBatch := []
  rhsBatch := []
  wf := dot_S4x2048x128_S128x128_S4x2048x128_2_1_01_0_n_n_wf

class Facts : Prop extends Facts₀ where

variable [Facts]
-- ==== Proof.BlockDiag.lean ====
/-
  The block-diagonal product.

  The last axis of `x`, 4096 wide, is cut into eight consecutive spans of widths 512, 1024, 256, 768, 384, 640, 128 and
  384, starting at columns 0, 512, 1536, 1792, 2560, 2944, 3584 and 3712. Span `i` has its own square matrix `w_i`, and
  the result at `(b, s, off_i + e)` is `∑ k, x[b, s, off_i + k] · w_i[e, k]`: each span of a row of `x` is multiplied by
  the transpose of its matrix, and the eight products are laid side by side again.
-/
import Idealize.ShloMosaic.Lib.Pipeline.Value
import Idealize.ShloMosaic.Lib.ValueIdx

noncomputable section

namespace Cert.BlockDiag

open Idealize.ShloMosaic Idealize.ShloMosaic.ValueIdx

/-- The shape of `x` and of the result. -/
abbrev X : Shape := ⟨3, ![4, 2048, 4096]⟩

/-- Column `off + k` of the 4096, for `k` inside a span of width `n` that starts at `off`. -/
abbrev col (n off : ℕ) (h : off + n ≤ 4096) (k : Fin n) : Fin 4096 := ⟨off + k.val, by have := k.isLt; omega⟩

/-- One span's product: at `(b, s, e)` the sum over the span's columns `k` of `x[b, s, off + k] · w[e, k]`. -/
def span (n off : ℕ) (h : off + n ≤ 4096) (x : X.Idx → EReal) (w : (⟨2, ![n, n]⟩ : Shape).Idx → EReal) :
    (⟨3, ![4, 2048, n]⟩ : Shape).Idx → EReal :=
  fun i => ∑ k : Fin n, x (ix3 (i 0 : Fin 4) (i 1 : Fin 2048) (col n off h k)) * w (ix2 (i 2 : Fin n) k)

theorem span_apply (n off : ℕ) (h : off + n ≤ 4096) (x : X.Idx → EReal) (w : (⟨2, ![n, n]⟩ : Shape).Idx → EReal)
    (b : Fin 4) (s : Fin 2048) (e : Fin n) :
    span n off h x w (ix3 b s e) = ∑ k : Fin n, x (ix3 b s (col n off h k)) * w (ix2 e k) := rfl

/-- The eight products, each with its shape, in order. -/
abbrev pieces (x : X.Idx → EReal)
    (w0 : (⟨2, ![512, 512]⟩ : Shape).Idx → EReal)
    (w1 : (⟨2, ![1024, 1024]⟩ : Shape).Idx → EReal)
    (w2 : (⟨2, ![256, 256]⟩ : Shape).Idx → EReal)
    (w3 : (⟨2, ![768, 768]⟩ : Shape).Idx → EReal)
    (w4 : (⟨2, ![384, 384]⟩ : Shape).Idx → EReal)
    (w5 : (⟨2, ![640, 640]⟩ : Shape).Idx → EReal)
    (w6 : (⟨2, ![128, 128]⟩ : Shape).Idx → EReal)
    (w7 : (⟨2, ![384, 384]⟩ : Shape).Idx → EReal) : List ((s : Shape) × (s.Idx → EReal)) :=
  [⟨⟨3, ![4, 2048, 512]⟩, span 512 0 (by omega) x w0⟩,
   ⟨⟨3, ![4, 2048, 1024]⟩, span 1024 512 (by omega) x w1⟩,
   ⟨⟨3, ![4, 2048, 256]⟩, span 256 1536 (by omega) x w2⟩,
   ⟨⟨3, ![4, 2048, 768]⟩, span 768 1792 (by omega) x w3⟩,
   ⟨⟨3, ![4, 2048, 384]⟩, span 384 2560 (by omega) x w4⟩,
   ⟨⟨3, ![4, 2048, 640]⟩, span 640 2944 (by omega) x w5⟩,
   ⟨⟨3, ![4, 2048, 128]⟩, span 128 3584 (by omega) x w6⟩,
   ⟨⟨3, ![4, 2048, 384]⟩, span 384 3712 (by omega) x w7⟩]

/-- The widths add up to 4096 and the other two extents agree. -/
theorem pieces_join (x : X.Idx → EReal) (w0 : (⟨2, ![512, 512]⟩ : Shape).Idx → EReal) (w1 : (⟨2, ![1024, 1024]⟩ : Shape).Idx → EReal) (w2 : (⟨2, ![256, 256]⟩ : Shape).Idx → EReal) (w3 : (⟨2, ![768, 768]⟩ : Shape).Idx → EReal) (w4 : (⟨2, ![384, 384]⟩ : Shape).Idx → EReal) (w5 : (⟨2, ![640, 640]⟩ : Shape).Idx → EReal) (w6 : (⟨2, ![128, 128]⟩ : Shape).Idx → EReal) (w7 : (⟨2, ![384, 384]⟩ : Shape).Idx → EReal) :
    Shape.Concatenates ((pieces x w0 w1 w2 w3 w4 w5 w6 w7).map (·.1)) X 2 := by
  show Shape.Concatenates [⟨3, ![4, 2048, 512]⟩, ⟨3, ![4, 2048, 1024]⟩, ⟨3, ![4, 2048, 256]⟩, ⟨3, ![4, 2048, 768]⟩, ⟨3, ![4, 2048, 384]⟩, ⟨3, ![4, 2048, 640]⟩, ⟨3, ![4, 2048, 128]⟩, ⟨3, ![4, 2048, 384]⟩] X 2
  decide

/-- The eight products side by side along the last axis. -/
def whole (x : X.Idx → EReal)
    (w0 : (⟨2, ![512, 512]⟩ : Shape).Idx → EReal)
    (w1 : (⟨2, ![1024, 1024]⟩ : Shape).Idx → EReal)
    (w2 : (⟨2, ![256, 256]⟩ : Shape).Idx → EReal)
    (w3 : (⟨2, ![768, 768]⟩ : Shape).Idx → EReal)
    (w4 : (⟨2, ![384, 384]⟩ : Shape).Idx → EReal)
    (w5 : (⟨2, ![640, 640]⟩ : Shape).Idx → EReal)
    (w6 : (⟨2, ![128, 128]⟩ : Shape).Idx → EReal)
    (w7 : (⟨2, ![384, 384]⟩ : Shape).Idx → EReal) : X.Idx → EReal :=
  concatenate X 2 (pieces x w0 w1 w2 w3 w4 w5 w6 w7) (pieces_join x w0 w1 w2 w3 w4 w5 w6 w7)

/-- The result inside span 0 (columns 0 to 511). -/
theorem whole_span0 (x : X.Idx → EReal) (w0 : (⟨2, ![512, 512]⟩ : Shape).Idx → EReal) (w1 : (⟨2, ![1024, 1024]⟩ : Shape).Idx → EReal) (w2 : (⟨2, ![256, 256]⟩ : Shape).Idx → EReal) (w3 : (⟨2, ![768, 768]⟩ : Shape).Idx → EReal) (w4 : (⟨2, ![384, 384]⟩ : Shape).Idx → EReal) (w5 : (⟨2, ![640, 640]⟩ : Shape).Idx → EReal) (w6 : (⟨2, ![128, 128]⟩ : Shape).Idx → EReal) (w7 : (⟨2, ![384, 384]⟩ : Shape).Idx → EReal)
    (b : Fin 4) (s : Fin 2048) (e : Fin 512) :
    whole x w0 w1 w2 w3 w4 w5 w6 w7 (ix3 b s (col 512 0 (by omega) e))
      = ∑ k : Fin 512, x (ix3 b s (col 512 0 (by omega) k)) * w0 (ix2 e k) := by
  unfold whole
  refine (concatenate_apply_piece (2 : Fin 3) (pieces x w0 w1 w2 w3 w4 w5 w6 w7) (pieces_join x w0 w1 w2 w3 w4 w5 w6 w7) (ix3 b s (col 512 0 (by omega) e)) 0 (by show 0 < 8; omega) ⟨3, ![4, 2048, 512]⟩ (span 512 0 (by omega) x w0) rfl rfl 0 rfl
    (ix3 b s e) (fun a ha => ?_) rfl).trans (span_apply 512 0 (by omega) x w0 b s e)
  match a with
  | ⟨0, _⟩ => rfl
  | ⟨1, _⟩ => rfl
  | ⟨2, _⟩ => exact absurd rfl ha

/-- The result inside span 1 (columns 512 to 1535). -/
theorem whole_span1 (x : X.Idx → EReal) (w0 : (⟨2, ![512, 512]⟩ : Shape).Idx → EReal) (w1 : (⟨2, ![1024, 1024]⟩ : Shape).Idx → EReal) (w2 : (⟨2, ![256, 256]⟩ : Shape).Idx → EReal) (w3 : (⟨2, ![768, 768]⟩ : Shape).Idx → EReal) (w4 : (⟨2, ![384, 384]⟩ : Shape).Idx → EReal) (w5 : (⟨2, ![640, 640]⟩ : Shape).Idx → EReal) (w6 : (⟨2, ![128, 128]⟩ : Shape).Idx → EReal) (w7 : (⟨2, ![384, 384]⟩ : Shape).Idx → EReal)
    (b : Fin 4) (s : Fin 2048) (e : Fin 1024) :
    whole x w0 w1 w2 w3 w4 w5 w6 w7 (ix3 b s (col 1024 512 (by omega) e))
      = ∑ k : Fin 1024, x (ix3 b s (col 1024 512 (by omega) k)) * w1 (ix2 e k) := by
  unfold whole
  refine (concatenate_apply_piece (2 : Fin 3) (pieces x w0 w1 w2 w3 w4 w5 w6 w7) (pieces_join x w0 w1 w2 w3 w4 w5 w6 w7) (ix3 b s (col 1024 512 (by omega) e)) 1 (by show 1 < 8; omega) ⟨3, ![4, 2048, 1024]⟩ (span 1024 512 (by omega) x w1) rfl rfl 512 rfl
    (ix3 b s e) (fun a ha => ?_) rfl).trans (span_apply 1024 512 (by omega) x w1 b s e)
  match a with
  | ⟨0, _⟩ => rfl
  | ⟨1, _⟩ => rfl
  | ⟨2, _⟩ => exact absurd rfl ha

/-- The result inside span 2 (columns 1536 to 1791). -/
theorem whole_span2 (x : X.Idx → EReal) (w0 : (⟨2, ![512, 512]⟩ : Shape).Idx → EReal) (w1 : (⟨2, ![1024, 1024]⟩ : Shape).Idx → EReal) (w2 : (⟨2, ![256, 256]⟩ : Shape).Idx → EReal) (w3 : (⟨2, ![768, 768]⟩ : Shape).Idx → EReal) (w4 : (⟨2, ![384, 384]⟩ : Shape).Idx → EReal) (w5 : (⟨2, ![640, 640]⟩ : Shape).Idx → EReal) (w6 : (⟨2, ![128, 128]⟩ : Shape).Idx → EReal) (w7 : (⟨2, ![384, 384]⟩ : Shape).Idx → EReal)
    (b : Fin 4) (s : Fin 2048) (e : Fin 256) :
    whole x w0 w1 w2 w3 w4 w5 w6 w7 (ix3 b s (col 256 1536 (by omega) e))
      = ∑ k : Fin 256, x (ix3 b s (col 256 1536 (by omega) k)) * w2 (ix2 e k) := by
  unfold whole
  refine (concatenate_apply_piece (2 : Fin 3) (pieces x w0 w1 w2 w3 w4 w5 w6 w7) (pieces_join x w0 w1 w2 w3 w4 w5 w6 w7) (ix3 b s (col 256 1536 (by omega) e)) 2 (by show 2 < 8; omega) ⟨3, ![4, 2048, 256]⟩ (span 256 1536 (by omega) x w2) rfl rfl 1536 rfl
    (ix3 b s e) (fun a ha => ?_) rfl).trans (span_apply 256 1536 (by omega) x w2 b s e)
  match a with
  | ⟨0, _⟩ => rfl
  | ⟨1, _⟩ => rfl
  | ⟨2, _⟩ => exact absurd rfl ha

/-- The result inside span 3 (columns 1792 to 2559). -/
theorem whole_span3 (x : X.Idx → EReal) (w0 : (⟨2, ![512, 512]⟩ : Shape).Idx → EReal) (w1 : (⟨2, ![1024, 1024]⟩ : Shape).Idx → EReal) (w2 : (⟨2, ![256, 256]⟩ : Shape).Idx → EReal) (w3 : (⟨2, ![768, 768]⟩ : Shape).Idx → EReal) (w4 : (⟨2, ![384, 384]⟩ : Shape).Idx → EReal) (w5 : (⟨2, ![640, 640]⟩ : Shape).Idx → EReal) (w6 : (⟨2, ![128, 128]⟩ : Shape).Idx → EReal) (w7 : (⟨2, ![384, 384]⟩ : Shape).Idx → EReal)
    (b : Fin 4) (s : Fin 2048) (e : Fin 768) :
    whole x w0 w1 w2 w3 w4 w5 w6 w7 (ix3 b s (col 768 1792 (by omega) e))
      = ∑ k : Fin 768, x (ix3 b s (col 768 1792 (by omega) k)) * w3 (ix2 e k) := by
  unfold whole
  refine (concatenate_apply_piece (2 : Fin 3) (pieces x w0 w1 w2 w3 w4 w5 w6 w7) (pieces_join x w0 w1 w2 w3 w4 w5 w6 w7) (ix3 b s (col 768 1792 (by omega) e)) 3 (by show 3 < 8; omega) ⟨3, ![4, 2048, 768]⟩ (span 768 1792 (by omega) x w3) rfl rfl 1792 rfl
    (ix3 b s e) (fun a ha => ?_) rfl).trans (span_apply 768 1792 (by omega) x w3 b s e)
  match a with
  | ⟨0, _⟩ => rfl
  | ⟨1, _⟩ => rfl
  | ⟨2, _⟩ => exact absurd rfl ha

/-- The result inside span 4 (columns 2560 to 2943). -/
theorem whole_span4 (x : X.Idx → EReal) (w0 : (⟨2, ![512, 512]⟩ : Shape).Idx → EReal) (w1 : (⟨2, ![1024, 1024]⟩ : Shape).Idx → EReal) (w2 : (⟨2, ![256, 256]⟩ : Shape).Idx → EReal) (w3 : (⟨2, ![768, 768]⟩ : Shape).Idx → EReal) (w4 : (⟨2, ![384, 384]⟩ : Shape).Idx → EReal) (w5 : (⟨2, ![640, 640]⟩ : Shape).Idx → EReal) (w6 : (⟨2, ![128, 128]⟩ : Shape).Idx → EReal) (w7 : (⟨2, ![384, 384]⟩ : Shape).Idx → EReal)
    (b : Fin 4) (s : Fin 2048) (e : Fin 384) :
    whole x w0 w1 w2 w3 w4 w5 w6 w7 (ix3 b s (col 384 2560 (by omega) e))
      = ∑ k : Fin 384, x (ix3 b s (col 384 2560 (by omega) k)) * w4 (ix2 e k) := by
  unfold whole
  refine (concatenate_apply_piece (2 : Fin 3) (pieces x w0 w1 w2 w3 w4 w5 w6 w7) (pieces_join x w0 w1 w2 w3 w4 w5 w6 w7) (ix3 b s (col 384 2560 (by omega) e)) 4 (by show 4 < 8; omega) ⟨3, ![4, 2048, 384]⟩ (span 384 2560 (by omega) x w4) rfl rfl 2560 rfl
    (ix3 b s e) (fun a ha => ?_) rfl).trans (span_apply 384 2560 (by omega) x w4 b s e)
  match a with
  | ⟨0, _⟩ => rfl
  | ⟨1, _⟩ => rfl
  | ⟨2, _⟩ => exact absurd rfl ha

/-- The result inside span 5 (columns 2944 to 3583). -/
theorem whole_span5 (x : X.Idx → EReal) (w0 : (⟨2, ![512, 512]⟩ : Shape).Idx → EReal) (w1 : (⟨2, ![1024, 1024]⟩ : Shape).Idx → EReal) (w2 : (⟨2, ![256, 256]⟩ : Shape).Idx → EReal) (w3 : (⟨2, ![768, 768]⟩ : Shape).Idx → EReal) (w4 : (⟨2, ![384, 384]⟩ : Shape).Idx → EReal) (w5 : (⟨2, ![640, 640]⟩ : Shape).Idx → EReal) (w6 : (⟨2, ![128, 128]⟩ : Shape).Idx → EReal) (w7 : (⟨2, ![384, 384]⟩ : Shape).Idx → EReal)
    (b : Fin 4) (s : Fin 2048) (e : Fin 640) :
    whole x w0 w1 w2 w3 w4 w5 w6 w7 (ix3 b s (col 640 2944 (by omega) e))
      = ∑ k : Fin 640, x (ix3 b s (col 640 2944 (by omega) k)) * w5 (ix2 e k) := by
  unfold whole
  refine (concatenate_apply_piece (2 : Fin 3) (pieces x w0 w1 w2 w3 w4 w5 w6 w7) (pieces_join x w0 w1 w2 w3 w4 w5 w6 w7) (ix3 b s (col 640 2944 (by omega) e)) 5 (by show 5 < 8; omega) ⟨3, ![4, 2048, 640]⟩ (span 640 2944 (by omega) x w5) rfl rfl 2944 rfl
    (ix3 b s e) (fun a ha => ?_) rfl).trans (span_apply 640 2944 (by omega) x w5 b s e)
  match a with
  | ⟨0, _⟩ => rfl
  | ⟨1, _⟩ => rfl
  | ⟨2, _⟩ => exact absurd rfl ha

/-- The result inside span 6 (columns 3584 to 3711). -/
theorem whole_span6 (x : X.Idx → EReal) (w0 : (⟨2, ![512, 512]⟩ : Shape).Idx → EReal) (w1 : (⟨2, ![1024, 1024]⟩ : Shape).Idx → EReal) (w2 : (⟨2, ![256, 256]⟩ : Shape).Idx → EReal) (w3 : (⟨2, ![768, 768]⟩ : Shape).Idx → EReal) (w4 : (⟨2, ![384, 384]⟩ : Shape).Idx → EReal) (w5 : (⟨2, ![640, 640]⟩ : Shape).Idx → EReal) (w6 : (⟨2, ![128, 128]⟩ : Shape).Idx → EReal) (w7 : (⟨2, ![384, 384]⟩ : Shape).Idx → EReal)
    (b : Fin 4) (s : Fin 2048) (e : Fin 128) :
    whole x w0 w1 w2 w3 w4 w5 w6 w7 (ix3 b s (col 128 3584 (by omega) e))
      = ∑ k : Fin 128, x (ix3 b s (col 128 3584 (by omega) k)) * w6 (ix2 e k) := by
  unfold whole
  refine (concatenate_apply_piece (2 : Fin 3) (pieces x w0 w1 w2 w3 w4 w5 w6 w7) (pieces_join x w0 w1 w2 w3 w4 w5 w6 w7) (ix3 b s (col 128 3584 (by omega) e)) 6 (by show 6 < 8; omega) ⟨3, ![4, 2048, 128]⟩ (span 128 3584 (by omega) x w6) rfl rfl 3584 rfl
    (ix3 b s e) (fun a ha => ?_) rfl).trans (span_apply 128 3584 (by omega) x w6 b s e)
  match a with
  | ⟨0, _⟩ => rfl
  | ⟨1, _⟩ => rfl
  | ⟨2, _⟩ => exact absurd rfl ha

/-- The result inside span 7 (columns 3712 to 4095). -/
theorem whole_span7 (x : X.Idx → EReal) (w0 : (⟨2, ![512, 512]⟩ : Shape).Idx → EReal) (w1 : (⟨2, ![1024, 1024]⟩ : Shape).Idx → EReal) (w2 : (⟨2, ![256, 256]⟩ : Shape).Idx → EReal) (w3 : (⟨2, ![768, 768]⟩ : Shape).Idx → EReal) (w4 : (⟨2, ![384, 384]⟩ : Shape).Idx → EReal) (w5 : (⟨2, ![640, 640]⟩ : Shape).Idx → EReal) (w6 : (⟨2, ![128, 128]⟩ : Shape).Idx → EReal) (w7 : (⟨2, ![384, 384]⟩ : Shape).Idx → EReal)
    (b : Fin 4) (s : Fin 2048) (e : Fin 384) :
    whole x w0 w1 w2 w3 w4 w5 w6 w7 (ix3 b s (col 384 3712 (by omega) e))
      = ∑ k : Fin 384, x (ix3 b s (col 384 3712 (by omega) k)) * w7 (ix2 e k) := by
  unfold whole
  refine (concatenate_apply_piece (2 : Fin 3) (pieces x w0 w1 w2 w3 w4 w5 w6 w7) (pieces_join x w0 w1 w2 w3 w4 w5 w6 w7) (ix3 b s (col 384 3712 (by omega) e)) 7 (by show 7 < 8; omega) ⟨3, ![4, 2048, 384]⟩ (span 384 3712 (by omega) x w7) rfl rfl 3712 rfl
    (ix3 b s e) (fun a ha => ?_) rfl).trans (span_apply 384 3712 (by omega) x w7 b s e)
  match a with
  | ⟨0, _⟩ => rfl
  | ⟨1, _⟩ => rfl
  | ⟨2, _⟩ => exact absurd rfl ha

end Cert.BlockDiag

end
-- ==== Proof.RefSide.lean ====
/-
  The reference is the block-diagonal product.

  The reference cuts `x` into its eight spans along the last axis, contracts each span with its own matrix over the
  matrix's second axis, and joins the eight results along the last axis again. Read at an index, the span's contraction
  is `∑ k, x[b, s, off + k] · w[e, k]`: the slice reads `x` at column `off + k`, and the contraction pairs column `k` of
  the slice with entry `(e, k)` of the matrix.
-/
import proofs.«163500_j58669253263997_2_alg».proof.Proof.Gen.ReferenceIdeal.Read
import proofs.«163500_j58669253263997_2_alg».proof.Proof.BlockDiag

noncomputable section

namespace Cert.RefSide

open Idealize.ShloMosaic Idealize.ShloMosaic.ValueIdx Cert.ReferenceIdeal Cert.ReferenceIdeal.Read Cert.BlockDiag

/-- Two joins of the same list of pieces are the same array, whatever the witnesses of the join's side condition. -/
theorem concatenate_congr {α : Type} {t : Shape} (a : Fin t.rank) (xs ys : List ((s : Shape) × (s.Idx → α)))
    (h : Shape.Concatenates (xs.map (·.1)) t a) (h' : Shape.Concatenates (ys.map (·.1)) t a) (e : xs = ys) :
    concatenate t a xs h = concatenate t a ys h' := by
  subst e; rfl

/-- Span 0: the slice at column 0, width 512, contracted with its matrix. -/
theorem span0_eq (x : (⟨S4x2048x4096, .f32⟩ : BufTy).Contents (Elt Ideal)) (w : (⟨S512x512, .f32⟩ : BufTy).Contents (Elt Ideal)) :
    val_main_v1 (F := Ideal) x w = span 512 0 (by omega) x w := by
  funext i
  rw [val_main_v1_apply]
  refine Finset.sum_congr rfl fun k _ => ?_
  rw [val_main_v0_apply]
  have el : idx_main_v0 (lidx_main_v1 i k) = ix3 (i 0 : Fin 4) (i 1 : Fin 2048) (col 512 0 (by omega) k) :=
    funext fun a => Fin.ext (by
      match a with
      | ⟨0, _⟩ => rfl
      | ⟨1, _⟩ => rfl
      | ⟨2, _⟩ => exact (Nat.zero_add _).symm)
  have er : ridx_main_v1 i k = ix2 (i 2 : Fin 512) k :=
    funext fun a => Fin.ext (by
      match a with
      | ⟨0, _⟩ => rfl
      | ⟨1, _⟩ => rfl)
  rw [el, er]
  rfl

/-- Span 1: the slice at column 512, width 1024, contracted with its matrix. -/
theorem span1_eq (x : (⟨S4x2048x4096, .f32⟩ : BufTy).Contents (Elt Ideal)) (w : (⟨S1024x1024, .f32⟩ : BufTy).Contents (Elt Ideal)) :
    val_main_v3 (F := Ideal) x w = span 1024 512 (by omega) x w := by
  funext i
  rw [val_main_v3_apply]
  refine Finset.sum_congr rfl fun k _ => ?_
  rw [val_main_v2_apply]
  have el : idx_main_v2 (lidx_main_v3 i k) = ix3 (i 0 : Fin 4) (i 1 : Fin 2048) (col 1024 512 (by omega) k) :=
    funext fun a => Fin.ext (by
      match a with
      | ⟨0, _⟩ => rfl
      | ⟨1, _⟩ => rfl
      | ⟨2, _⟩ => rfl)
  have er : ridx_main_v3 i k = ix2 (i 2 : Fin 1024) k :=
    funext fun a => Fin.ext (by
      match a with
      | ⟨0, _⟩ => rfl
      | ⟨1, _⟩ => rfl)
  rw [el, er]
  rfl

/-- Span 2: the slice at column 1536, width 256, contracted with its matrix. -/
theorem span2_eq (x : (⟨S4x2048x4096, .f32⟩ : BufTy).Contents (Elt Ideal)) (w : (⟨S256x256, .f32⟩ : BufTy).Contents (Elt Ideal)) :
    val_main_v5 (F := Ideal) x w = span 256 1536 (by omega) x w := by
  funext i
  rw [val_main_v5_apply]
  refine Finset.sum_congr rfl fun k _ => ?_
  rw [val_main_v4_apply]
  have el : idx_main_v4 (lidx_main_v5 i k) = ix3 (i 0 : Fin 4) (i 1 : Fin 2048) (col 256 1536 (by omega) k) :=
    funext fun a => Fin.ext (by
      match a with
      | ⟨0, _⟩ => rfl
      | ⟨1, _⟩ => rfl
      | ⟨2, _⟩ => rfl)
  have er : ridx_main_v5 i k = ix2 (i 2 : Fin 256) k :=
    funext fun a => Fin.ext (by
      match a with
      | ⟨0, _⟩ => rfl
      | ⟨1, _⟩ => rfl)
  rw [el, er]
  rfl

/-- Span 3: the slice at column 1792, width 768, contracted with its matrix. -/
theorem span3_eq (x : (⟨S4x2048x4096, .f32⟩ : BufTy).Contents (Elt Ideal)) (w : (⟨S768x768, .f32⟩ : BufTy).Contents (Elt Ideal)) :
    val_main_v7 (F := Ideal) x w = span 768 1792 (by omega) x w := by
  funext i
  rw [val_main_v7_apply]
  refine Finset.sum_congr rfl fun k _ => ?_
  rw [val_main_v6_apply]
  have el : idx_main_v6 (lidx_main_v7 i k) = ix3 (i 0 : Fin 4) (i 1 : Fin 2048) (col 768 1792 (by omega) k) :=
    funext fun a => Fin.ext (by
      match a with
      | ⟨0, _⟩ => rfl
      | ⟨1, _⟩ => rfl
      | ⟨2, _⟩ => rfl)
  have er : ridx_main_v7 i k = ix2 (i 2 : Fin 768) k :=
    funext fun a => Fin.ext (by
      match a with
      | ⟨0, _⟩ => rfl
      | ⟨1, _⟩ => rfl)
  rw [el, er]
  rfl

/-- Span 4: the slice at column 2560, width 384, contracted with its matrix. -/
theorem span4_eq (x : (⟨S4x2048x4096, .f32⟩ : BufTy).Contents (Elt Ideal)) (w : (⟨S384x384, .f32⟩ : BufTy).Contents (Elt Ideal)) :
    val_main_v9 (F := Ideal) x w = span 384 2560 (by omega) x w := by
  funext i
  rw [val_main_v9_apply]
  refine Finset.sum_congr rfl fun k _ => ?_
  rw [val_main_v8_apply]
  have el : idx_main_v8 (lidx_main_v9 i k) = ix3 (i 0 : Fin 4) (i 1 : Fin 2048) (col 384 2560 (by omega) k) :=
    funext fun a => Fin.ext (by
      match a with
      | ⟨0, _⟩ => rfl
      | ⟨1, _⟩ => rfl
      | ⟨2, _⟩ => rfl)
  have er : ridx_main_v9 i k = ix2 (i 2 : Fin 384) k :=
    funext fun a => Fin.ext (by
      match a with
      | ⟨0, _⟩ => rfl
      | ⟨1, _⟩ => rfl)
  rw [el, er]
  rfl

/-- Span 5: the slice at column 2944, width 640, contracted with its matrix. -/
theorem span5_eq (x : (⟨S4x2048x4096, .f32⟩ : BufTy).Contents (Elt Ideal)) (w : (⟨S640x640, .f32⟩ : BufTy).Contents (Elt Ideal)) :
    val_main_v11 (F := Ideal) x w = span 640 2944 (by omega) x w := by
  funext i
  rw [val_main_v11_apply]
  refine Finset.sum_congr rfl fun k _ => ?_
  rw [val_main_v10_apply]
  have el : idx_main_v10 (lidx_main_v11 i k) = ix3 (i 0 : Fin 4) (i 1 : Fin 2048) (col 640 2944 (by omega) k) :=
    funext fun a => Fin.ext (by
      match a with
      | ⟨0, _⟩ => rfl
      | ⟨1, _⟩ => rfl
      | ⟨2, _⟩ => rfl)
  have er : ridx_main_v11 i k = ix2 (i 2 : Fin 640) k :=
    funext fun a => Fin.ext (by
      match a with
      | ⟨0, _⟩ => rfl
      | ⟨1, _⟩ => rfl)
  rw [el, er]
  rfl

/-- Span 6: the slice at column 3584, width 128, contracted with its matrix. -/
theorem span6_eq (x : (⟨S4x2048x4096, .f32⟩ : BufTy).Contents (Elt Ideal)) (w : (⟨S128x128, .f32⟩ : BufTy).Contents (Elt Ideal)) :
    val_main_v13 (F := Ideal) x w = span 128 3584 (by omega) x w := by
  funext i
  rw [val_main_v13_apply]
  refine Finset.sum_congr rfl fun k _ => ?_
  rw [val_main_v12_apply]
  have el : idx_main_v12 (lidx_main_v13 i k) = ix3 (i 0 : Fin 4) (i 1 : Fin 2048) (col 128 3584 (by omega) k) :=
    funext fun a => Fin.ext (by
      match a with
      | ⟨0, _⟩ => rfl
      | ⟨1, _⟩ => rfl
      | ⟨2, _⟩ => rfl)
  have er : ridx_main_v13 i k = ix2 (i 2 : Fin 128) k :=
    funext fun a => Fin.ext (by
      match a with
      | ⟨0, _⟩ => rfl
      | ⟨1, _⟩ => rfl)
  rw [el, er]
  rfl

/-- Span 7: the slice at column 3712, width 384, contracted with its matrix. -/
theorem span7_eq (x : (⟨S4x2048x4096, .f32⟩ : BufTy).Contents (Elt Ideal)) (w : (⟨S384x384, .f32⟩ : BufTy).Contents (Elt Ideal)) :
    val_main_v15 (F := Ideal) x w = span 384 3712 (by omega) x w := by
  funext i
  rw [val_main_v15_apply]
  refine Finset.sum_congr rfl fun k _ => ?_
  rw [val_main_v14_apply]
  have el : idx_main_v14 (lidx_main_v15 i k) = ix3 (i 0 : Fin 4) (i 1 : Fin 2048) (col 384 3712 (by omega) k) :=
    funext fun a => Fin.ext (by
      match a with
      | ⟨0, _⟩ => rfl
      | ⟨1, _⟩ => rfl
      | ⟨2, _⟩ => rfl)
  have er : ridx_main_v15 i k = ix2 (i 2 : Fin 384) k :=
    funext fun a => Fin.ext (by
      match a with
      | ⟨0, _⟩ => rfl
      | ⟨1, _⟩ => rfl)
  rw [el, er]
  rfl

/-- The reference's result, as a function of the argument arrays, is the block-diagonal product. -/
theorem result_eq (x : (⟨S4x2048x4096, .f32⟩ : BufTy).Contents (Elt Ideal))
    (w0 : (⟨S512x512, .f32⟩ : BufTy).Contents (Elt Ideal))
    (w1 : (⟨S1024x1024, .f32⟩ : BufTy).Contents (Elt Ideal))
    (w2 : (⟨S256x256, .f32⟩ : BufTy).Contents (Elt Ideal))
    (w3 : (⟨S768x768, .f32⟩ : BufTy).Contents (Elt Ideal))
    (w4 : (⟨S384x384, .f32⟩ : BufTy).Contents (Elt Ideal))
    (w5 : (⟨S640x640, .f32⟩ : BufTy).Contents (Elt Ideal))
    (w6 : (⟨S128x128, .f32⟩ : BufTy).Contents (Elt Ideal))
    (w7 : (⟨S384x384, .f32⟩ : BufTy).Contents (Elt Ideal)) :
    val_main_v16 (F := Ideal) x w0 w1 w2 w3 w4 w5 w6 w7 = whole x w0 w1 w2 w3 w4 w5 w6 w7 := by
  unfold val_main_v16 whole
  refine concatenate_congr _ _ _ _ _ ?_
  rw [span0_eq, span1_eq, span2_eq, span3_eq, span4_eq, span5_eq, span6_eq, span7_eq]

end Cert.RefSide

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Payloads.lean ====
/-
  Each store's value at an entry.

  The body computes, for each of the eight spans, the product of a 256-row slab of `x` (the span's columns) with the
  span's matrix as the host prepared it (transposed), into a zero accumulator. The narrowing of the slab to a shorter
  float format is the identity on the extended reals, and the reshapes to the same shape are the identity, so entry
  `(p, e)` of the product is the plain sum `∑ k, slab[p, k] · matrix[k, e]`.
-/
import proofs.«163500_j58669253263997_2_alg».proof.Proof.Gen.KernelIdeal.Skeleton
import proofs.«163500_j58669253263997_2_alg».proof.Proof.LibPlainProduct
import Idealize.ShloMosaic.Lib.Pipeline.Value

noncomputable section

namespace Cert.Payloads

open Idealize.ShloMosaic Idealize.ShloMosaic.ValueIdx Cert.KernelIdeal Cert.KernelIdeal.Gen

/-! ## The product of a slab with a square matrix, for each width -/

/-- A `[256, 512]` slab times a `[512, 512]` matrix into the zero accumulator, at entry `(p, e)`. -/
theorem product512 {φ₁ φ₂ : FTy} (l : FVec Ideal S256x512 φ₁) (r : FVec Ideal S512x512 φ₂) (p : Fin 256) (e : Fin 512) :
    FloatOps.matmul dot_S256x512_S512x512_S256x512_1_0_0_1_n_n none l r (constant (F := Ideal) S256x512 .f32 0x00000000#32) (ix2 p e)
      = ∑ k : Fin 512, l (ix2 p k) * r (ix2 k e) :=
  Cert.PlainProduct.matmul_zero_entry dot_S256x512_S512x512_S256x512_1_0_0_1_n_n rfl rfl
    (fun j q => by
      unfold DotDims.lhsIdx
      rw [dif_neg (show ¬(0 : Fin S256x512.rank) ∈ dot_S256x512_S512x512_S256x512_1_0_0_1_n_n.lhsBatch by decide),
        dif_pos (show (0 : Fin S256x512.rank) ∈ dot_S256x512_S512x512_S256x512_1_0_0_1_n_n.lhsNonContracting by decide)]
      rfl)
    (fun j q => dot_S256x512_S512x512_S256x512_1_0_0_1_n_n.lhsIdx_val_of_single rfl j q)
    (fun j q => dot_S256x512_S512x512_S256x512_1_0_0_1_n_n.rhsIdx_val_of_single rfl j q)
    (fun j q => by
      unfold DotDims.rhsIdx
      rw [dif_neg (show ¬(1 : Fin S512x512.rank) ∈ dot_S256x512_S512x512_S256x512_1_0_0_1_n_n.rhsBatch by decide),
        dif_pos (show (1 : Fin S512x512.rank) ∈ dot_S256x512_S512x512_S256x512_1_0_0_1_n_n.rhsNonContracting by decide)]
      rfl)
    l r p e

/-- A `[256, 1024]` slab times a `[1024, 1024]` matrix into the zero accumulator, at entry `(p, e)`. -/
theorem product1024 {φ₁ φ₂ : FTy} (l : FVec Ideal S256x1024 φ₁) (r : FVec Ideal S1024x1024 φ₂) (p : Fin 256) (e : Fin 1024) :
    FloatOps.matmul dot_S256x1024_S1024x1024_S256x1024_1_0_0_1_n_n none l r (constant (F := Ideal) S256x1024 .f32 0x00000000#32) (ix2 p e)
      = ∑ k : Fin 1024, l (ix2 p k) * r (ix2 k e) :=
  Cert.PlainProduct.matmul_zero_entry dot_S256x1024_S1024x1024_S256x1024_1_0_0_1_n_n rfl rfl
    (fun j q => by
      unfold DotDims.lhsIdx
      rw [dif_neg (show ¬(0 : Fin S256x1024.rank) ∈ dot_S256x1024_S1024x1024_S256x1024_1_0_0_1_n_n.lhsBatch by decide),
        dif_pos (show (0 : Fin S256x1024.rank) ∈ dot_S256x1024_S1024x1024_S256x1024_1_0_0_1_n_n.lhsNonContracting by decide)]
      rfl)
    (fun j q => dot_S256x1024_S1024x1024_S256x1024_1_0_0_1_n_n.lhsIdx_val_of_single rfl j q)
    (fun j q => dot_S256x1024_S1024x1024_S256x1024_1_0_0_1_n_n.rhsIdx_val_of_single rfl j q)
    (fun j q => by
      unfold DotDims.rhsIdx
      rw [dif_neg (show ¬(1 : Fin S1024x1024.rank) ∈ dot_S256x1024_S1024x1024_S256x1024_1_0_0_1_n_n.rhsBatch by decide),
        dif_pos (show (1 : Fin S1024x1024.rank) ∈ dot_S256x1024_S1024x1024_S256x1024_1_0_0_1_n_n.rhsNonContracting by decide)]
      rfl)
    l r p e

/-- A `[256, 256]` slab times a `[256, 256]` matrix into the zero accumulator, at entry `(p, e)`. -/
theorem product256 {φ₁ φ₂ : FTy} (l : FVec Ideal S256x256 φ₁) (r : FVec Ideal S256x256 φ₂) (p : Fin 256) (e : Fin 256) :
    FloatOps.matmul dot_S256x256_S256x256_S256x256_1_0_0_1_n_n none l r (constant (F := Ideal) S256x256 .f32 0x00000000#32) (ix2 p e)
      = ∑ k : Fin 256, l (ix2 p k) * r (ix2 k e) :=
  Cert.PlainProduct.matmul_zero_entry dot_S256x256_S256x256_S256x256_1_0_0_1_n_n rfl rfl
    (fun j q => by
      unfold DotDims.lhsIdx
      rw [dif_neg (show ¬(0 : Fin S256x256.rank) ∈ dot_S256x256_S256x256_S256x256_1_0_0_1_n_n.lhsBatch by decide),
        dif_pos (show (0 : Fin S256x256.rank) ∈ dot_S256x256_S256x256_S256x256_1_0_0_1_n_n.lhsNonContracting by decide)]
      rfl)
    (fun j q => dot_S256x256_S256x256_S256x256_1_0_0_1_n_n.lhsIdx_val_of_single rfl j q)
    (fun j q => dot_S256x256_S256x256_S256x256_1_0_0_1_n_n.rhsIdx_val_of_single rfl j q)
    (fun j q => by
      unfold DotDims.rhsIdx
      rw [dif_neg (show ¬(1 : Fin S256x256.rank) ∈ dot_S256x256_S256x256_S256x256_1_0_0_1_n_n.rhsBatch by decide),
        dif_pos (show (1 : Fin S256x256.rank) ∈ dot_S256x256_S256x256_S256x256_1_0_0_1_n_n.rhsNonContracting by decide)]
      rfl)
    l r p e

/-- A `[256, 768]` slab times a `[768, 768]` matrix into the zero accumulator, at entry `(p, e)`. -/
theorem product768 {φ₁ φ₂ : FTy} (l : FVec Ideal S256x768 φ₁) (r : FVec Ideal S768x768 φ₂) (p : Fin 256) (e : Fin 768) :
    FloatOps.matmul dot_S256x768_S768x768_S256x768_1_0_0_1_n_n none l r (constant (F := Ideal) S256x768 .f32 0x00000000#32) (ix2 p e)
      = ∑ k : Fin 768, l (ix2 p k) * r (ix2 k e) :=
  Cert.PlainProduct.matmul_zero_entry dot_S256x768_S768x768_S256x768_1_0_0_1_n_n rfl rfl
    (fun j q => by
      unfold DotDims.lhsIdx
      rw [dif_neg (show ¬(0 : Fin S256x768.rank) ∈ dot_S256x768_S768x768_S256x768_1_0_0_1_n_n.lhsBatch by decide),
        dif_pos (show (0 : Fin S256x768.rank) ∈ dot_S256x768_S768x768_S256x768_1_0_0_1_n_n.lhsNonContracting by decide)]
      rfl)
    (fun j q => dot_S256x768_S768x768_S256x768_1_0_0_1_n_n.lhsIdx_val_of_single rfl j q)
    (fun j q => dot_S256x768_S768x768_S256x768_1_0_0_1_n_n.rhsIdx_val_of_single rfl j q)
    (fun j q => by
      unfold DotDims.rhsIdx
      rw [dif_neg (show ¬(1 : Fin S768x768.rank) ∈ dot_S256x768_S768x768_S256x768_1_0_0_1_n_n.rhsBatch by decide),
        dif_pos (show (1 : Fin S768x768.rank) ∈ dot_S256x768_S768x768_S256x768_1_0_0_1_n_n.rhsNonContracting by decide)]
      rfl)
    l r p e

/-- A `[256, 384]` slab times a `[384, 384]` matrix into the zero accumulator, at entry `(p, e)`. -/
theorem product384 {φ₁ φ₂ : FTy} (l : FVec Ideal S256x384 φ₁) (r : FVec Ideal S384x384 φ₂) (p : Fin 256) (e : Fin 384) :
    FloatOps.matmul dot_S256x384_S384x384_S256x384_1_0_0_1_n_n none l r (constant (F := Ideal) S256x384 .f32 0x00000000#32) (ix2 p e)
      = ∑ k : Fin 384, l (ix2 p k) * r (ix2 k e) :=
  Cert.PlainProduct.matmul_zero_entry dot_S256x384_S384x384_S256x384_1_0_0_1_n_n rfl rfl
    (fun j q => by
      unfold DotDims.lhsIdx
      rw [dif_neg (show ¬(0 : Fin S256x384.rank) ∈ dot_S256x384_S384x384_S256x384_1_0_0_1_n_n.lhsBatch by decide),
        dif_pos (show (0 : Fin S256x384.rank) ∈ dot_S256x384_S384x384_S256x384_1_0_0_1_n_n.lhsNonContracting by decide)]
      rfl)
    (fun j q => dot_S256x384_S384x384_S256x384_1_0_0_1_n_n.lhsIdx_val_of_single rfl j q)
    (fun j q => dot_S256x384_S384x384_S256x384_1_0_0_1_n_n.rhsIdx_val_of_single rfl j q)
    (fun j q => by
      unfold DotDims.rhsIdx
      rw [dif_neg (show ¬(1 : Fin S384x384.rank) ∈ dot_S256x384_S384x384_S256x384_1_0_0_1_n_n.rhsBatch by decide),
        dif_pos (show (1 : Fin S384x384.rank) ∈ dot_S256x384_S384x384_S256x384_1_0_0_1_n_n.rhsNonContracting by decide)]
      rfl)
    l r p e

/-- A `[256, 640]` slab times a `[640, 640]` matrix into the zero accumulator, at entry `(p, e)`. -/
theorem product640 {φ₁ φ₂ : FTy} (l : FVec Ideal S256x640 φ₁) (r : FVec Ideal S640x640 φ₂) (p : Fin 256) (e : Fin 640) :
    FloatOps.matmul dot_S256x640_S640x640_S256x640_1_0_0_1_n_n none l r (constant (F := Ideal) S256x640 .f32 0x00000000#32) (ix2 p e)
      = ∑ k : Fin 640, l (ix2 p k) * r (ix2 k e) :=
  Cert.PlainProduct.matmul_zero_entry dot_S256x640_S640x640_S256x640_1_0_0_1_n_n rfl rfl
    (fun j q => by
      unfold DotDims.lhsIdx
      rw [dif_neg (show ¬(0 : Fin S256x640.rank) ∈ dot_S256x640_S640x640_S256x640_1_0_0_1_n_n.lhsBatch by decide),
        dif_pos (show (0 : Fin S256x640.rank) ∈ dot_S256x640_S640x640_S256x640_1_0_0_1_n_n.lhsNonContracting by decide)]
      rfl)
    (fun j q => dot_S256x640_S640x640_S256x640_1_0_0_1_n_n.lhsIdx_val_of_single rfl j q)
    (fun j q => dot_S256x640_S640x640_S256x640_1_0_0_1_n_n.rhsIdx_val_of_single rfl j q)
    (fun j q => by
      unfold DotDims.rhsIdx
      rw [dif_neg (show ¬(1 : Fin S640x640.rank) ∈ dot_S256x640_S640x640_S256x640_1_0_0_1_n_n.rhsBatch by decide),
        dif_pos (show (1 : Fin S640x640.rank) ∈ dot_S256x640_S640x640_S256x640_1_0_0_1_n_n.rhsNonContracting by decide)]
      rfl)
    l r p e

/-- A `[256, 128]` slab times a `[128, 128]` matrix into the zero accumulator, at entry `(p, e)`. -/
theorem product128 {φ₁ φ₂ : FTy} (l : FVec Ideal S256x128 φ₁) (r : FVec Ideal S128x128 φ₂) (p : Fin 256) (e : Fin 128) :
    FloatOps.matmul dot_S256x128_S128x128_S256x128_1_0_0_1_n_n none l r (constant (F := Ideal) S256x128 .f32 0x00000000#32) (ix2 p e)
      = ∑ k : Fin 128, l (ix2 p k) * r (ix2 k e) :=
  Cert.PlainProduct.matmul_zero_entry dot_S256x128_S128x128_S256x128_1_0_0_1_n_n rfl rfl
    (fun j q => by
      unfold DotDims.lhsIdx
      rw [dif_neg (show ¬(0 : Fin S256x128.rank) ∈ dot_S256x128_S128x128_S256x128_1_0_0_1_n_n.lhsBatch by decide),
        dif_pos (show (0 : Fin S256x128.rank) ∈ dot_S256x128_S128x128_S256x128_1_0_0_1_n_n.lhsNonContracting by decide)]
      rfl)
    (fun j q => dot_S256x128_S128x128_S256x128_1_0_0_1_n_n.lhsIdx_val_of_single rfl j q)
    (fun j q => dot_S256x128_S128x128_S256x128_1_0_0_1_n_n.rhsIdx_val_of_single rfl j q)
    (fun j q => by
      unfold DotDims.rhsIdx
      rw [dif_neg (show ¬(1 : Fin S128x128.rank) ∈ dot_S256x128_S128x128_S256x128_1_0_0_1_n_n.rhsBatch by decide),
        dif_pos (show (1 : Fin S128x128.rank) ∈ dot_S256x128_S128x128_S256x128_1_0_0_1_n_n.rhsNonContracting by decide)]
      rfl)
    l r p e

/-! ## The eight stores -/

/-- Span 0's store at entry `(p, e)`: the slab's row `p` against the matrix's column `e`. -/
theorem pay1_entry (v : Vec Ideal S256x512 .f32) (w : Vec Ideal S512x512 .bf16) (p : Fin 256) (e : Fin 512) :
    k0_pay1 (F := Ideal) v w (ix2 p e) = ∑ k : Fin 512, v (ix2 p k) * w (ix2 k e) := by
  unfold k0_pay1
  rw [shapeCast_self, shapeCast_self]
  exact product512 (truncf .bf16 v bitsLt_bf16_f32) w p e

/-- Span 1's store at entry `(p, e)`: the slab's row `p` against the matrix's column `e`. -/
theorem pay2_entry (v : Vec Ideal S256x1024 .f32) (w : Vec Ideal S1024x1024 .bf16) (p : Fin 256) (e : Fin 1024) :
    k0_pay2 (F := Ideal) v w (ix2 p e) = ∑ k : Fin 1024, v (ix2 p k) * w (ix2 k e) := by
  unfold k0_pay2
  rw [shapeCast_self, shapeCast_self]
  exact product1024 (truncf .bf16 v bitsLt_bf16_f32) w p e

/-- Span 2's store at entry `(p, e)`: the slab's row `p` against the matrix's column `e`. -/
theorem pay3_entry (v : Vec Ideal S256x256 .f32) (w : Vec Ideal S256x256 .bf16) (p : Fin 256) (e : Fin 256) :
    k0_pay3 (F := Ideal) v w (ix2 p e) = ∑ k : Fin 256, v (ix2 p k) * w (ix2 k e) := by
  unfold k0_pay3
  rw [shapeCast_self, shapeCast_self]
  exact product256 (truncf .bf16 v bitsLt_bf16_f32) w p e

/-- Span 3's store at entry `(p, e)`: the slab's row `p` against the matrix's column `e`. -/
theorem pay4_entry (v : Vec Ideal S256x768 .f32) (w : Vec Ideal S768x768 .bf16) (p : Fin 256) (e : Fin 768) :
    k0_pay4 (F := Ideal) v w (ix2 p e) = ∑ k : Fin 768, v (ix2 p k) * w (ix2 k e) := by
  unfold k0_pay4
  rw [shapeCast_self, shapeCast_self]
  exact product768 (truncf .bf16 v bitsLt_bf16_f32) w p e

/-- Span 4's store at entry `(p, e)`: the slab's row `p` against the matrix's column `e`. -/
theorem pay5_entry (v : Vec Ideal S256x384 .f32) (w : Vec Ideal S384x384 .bf16) (p : Fin 256) (e : Fin 384) :
    k0_pay5 (F := Ideal) v w (ix2 p e) = ∑ k : Fin 384, v (ix2 p k) * w (ix2 k e) := by
  unfold k0_pay5
  rw [shapeCast_self, shapeCast_self]
  exact product384 (truncf .bf16 v bitsLt_bf16_f32) w p e

/-- Span 5's store at entry `(p, e)`: the slab's row `p` against the matrix's column `e`. -/
theorem pay6_entry (v : Vec Ideal S256x640 .f32) (w : Vec Ideal S640x640 .bf16) (p : Fin 256) (e : Fin 640) :
    k0_pay6 (F := Ideal) v w (ix2 p e) = ∑ k : Fin 640, v (ix2 p k) * w (ix2 k e) := by
  unfold k0_pay6
  rw [shapeCast_self, shapeCast_self]
  exact product640 (truncf .bf16 v bitsLt_bf16_f32) w p e

/-- Span 6's store at entry `(p, e)`: the slab's row `p` against the matrix's column `e`. -/
theorem pay7_entry (v : Vec Ideal S256x128 .f32) (w : Vec Ideal S128x128 .bf16) (p : Fin 256) (e : Fin 128) :
    k0_pay7 (F := Ideal) v w (ix2 p e) = ∑ k : Fin 128, v (ix2 p k) * w (ix2 k e) := by
  unfold k0_pay7
  rw [shapeCast_self, shapeCast_self]
  exact product128 (truncf .bf16 v bitsLt_bf16_f32) w p e

/-- Span 7's store at entry `(p, e)`: the slab's row `p` against the matrix's column `e`. -/
theorem pay8_entry (v : Vec Ideal S256x384 .f32) (w : Vec Ideal S384x384 .bf16) (p : Fin 256) (e : Fin 384) :
    k0_pay8 (F := Ideal) v w (ix2 p e) = ∑ k : Fin 384, v (ix2 p k) * w (ix2 k e) := by
  unfold k0_pay8
  rw [shapeCast_self, shapeCast_self]
  exact product384 (truncf .bf16 v bitsLt_bf16_f32) w p e

end Cert.Payloads

end
-- ==== Proof.Block.lean ====
/-
  What the body leaves in the output block.

  The body writes the 256 × 4096 output block through eight stores, one per span: the store of span `i` fills all 256
  rows of the span's columns with the product of the matching slab of the input block and the span's matrix. The eight
  column ranges tile the block. So if a function `G` of the block index agrees, on each span's columns, with the sum
  `∑ k, x[p, off + k] · w[k, e]` over the input block `x` and the span's matrix `w`, the block the body leaves is `G`:
  every store agrees with `G` on its own rectangle, and every index lies in some store's rectangle.
-/
import proofs.«163500_j58669253263997_2_alg».proof.Proof.Gen.KernelIdeal.Frame
import proofs.«163500_j58669253263997_2_alg».proof.Proof.Payloads
import proofs.«163500_j58669253263997_2_alg».proof.Proof.BlockDiag
import Idealize.ShloMosaic.Lib.Pipeline.Value
import Idealize.ShloMosaic.Lib.Writes

set_option maxRecDepth 16384

noncomputable section

namespace Cert.Block

open Idealize.ShloMosaic Idealize.ShloMosaic.ValueIdx Idealize.ShloMosaic.TcCoe Idealize.ShloMosaic.Tactic Idealize.SL.Sem
open Cert.KernelIdeal Cert.KernelIdeal.Gen Cert.BlockDiag

theorem hz : (![0, 0] : Fin 2 → Nat) = fun _ => 0 := funext fun a => by fin_cases a <;> rfl

/-- The rectangle of all 256 rows and the `n` columns from `off` on: its position `(p, e)` is the block's `(p, off + e)`. -/
theorem slab_emb {n off : ℕ} (h : off + n ≤ 4096)
    (inb : ∀ a, (![0, off] : Fin 2 → ℕ) a + (![256, n] : Fin 2 → ℕ) a ≤ S256x4096.size a) (p : Fin 256) (e : Fin n) :
    (Rect.unit (s := S256x4096) ![0, off] ![256, n] inb).emb (ix2 p e) = ix2 p (col n off h e) := by
  funext a
  apply Fin.ext
  match a with
  | ⟨0, _⟩ => show 0 + 1 * p.val = p.val; omega
  | ⟨1, _⟩ => show off + 1 * e.val = off + e.val; omega

/-- A store through that rectangle agrees with `G` on it as soon as it does entry by entry. -/
theorem slab_agrees {n off : ℕ} (h : off + n ≤ 4096)
    (inb : ∀ a, (![0, off] : Fin 2 → ℕ) a + (![256, n] : Fin 2 → ℕ) a ≤ S256x4096.size a)
    (G : S256x4096.Idx → EReal) (pay : (⟨2, ![256, n]⟩ : Shape).Idx → EReal)
    (hp : ∀ (p : Fin 256) (e : Fin n), pay (ix2 p e) = G (ix2 p (col n off h e)))
    (x : (Rect.unit (s := S256x4096) ![0, off] ![256, n] inb).shape.Idx) :
    pay x = G ((Rect.unit (s := S256x4096) ![0, off] ![256, n] inb).emb x) := by
  obtain ⟨p, e, rfl⟩ : ∃ (p : Fin 256) (e : Fin n), x = ix2 p e := ⟨x 0, x 1, eq_ix2 x⟩
  rw [slab_emb h inb p e]
  exact hp p e

/-- The block the body leaves, from the input block `x0` and the eight matrices as the body loads them, is any function
    that is the span's sum on each span's columns. -/
theorem out_eq (c : Dev nD) (i : grid0.Coords) (arg1 : Memref sig .tc .vmem S256x4096 .f32) (harg1 : arg1.IsWhole) (arg2 : Memref sig .tc .vmem S512x512 .bf16) (harg2 : arg2.IsWhole) (arg3 : Memref sig .tc .vmem S1024x1024 .bf16) (harg3 : arg3.IsWhole) (arg4 : Memref sig .tc .vmem S256x256 .bf16) (harg4 : arg4.IsWhole) (arg5 : Memref sig .tc .vmem S768x768 .bf16) (harg5 : arg5.IsWhole) (arg6 : Memref sig .tc .vmem S384x384 .bf16) (harg6 : arg6.IsWhole) (arg7 : Memref sig .tc .vmem S640x640 .bf16) (harg7 : arg7.IsWhole) (arg8 : Memref sig .tc .vmem S128x128 .bf16) (harg8 : arg8.IsWhole) (arg9 : Memref sig .tc .vmem S384x384 .bf16) (harg9 : arg9.IsWhole) (arg10 : Memref sig .tc .vmem S256x4096 .f32) (harg10 : arg10.IsWhole) (x0 : Vec Ideal S256x4096 .f32) (x1 : Vec Ideal S512x512 .bf16) (x2 : Vec Ideal S1024x1024 .bf16) (x3 : Vec Ideal S256x256 .bf16) (x4 : Vec Ideal S768x768 .bf16) (x5 : Vec Ideal S384x384 .bf16) (x6 : Vec Ideal S640x640 .bf16) (x7 : Vec Ideal S128x128 .bf16) (x8 : Vec Ideal S384x384 .bf16)
    (G : S256x4096.Idx → EReal)
    (h0 : ∀ (p : Fin 256) (e : Fin 512), G (ix2 p (col 512 0 (by omega) e))
      = ∑ k : Fin 512, x0 (ix2 p (col 512 0 (by omega) k)) * x1 (ix2 k e))
    (h1 : ∀ (p : Fin 256) (e : Fin 1024), G (ix2 p (col 1024 512 (by omega) e))
      = ∑ k : Fin 1024, x0 (ix2 p (col 1024 512 (by omega) k)) * x2 (ix2 k e))
    (h2 : ∀ (p : Fin 256) (e : Fin 256), G (ix2 p (col 256 1536 (by omega) e))
      = ∑ k : Fin 256, x0 (ix2 p (col 256 1536 (by omega) k)) * x3 (ix2 k e))
    (h3 : ∀ (p : Fin 256) (e : Fin 768), G (ix2 p (col 768 1792 (by omega) e))
      = ∑ k : Fin 768, x0 (ix2 p (col 768 1792 (by omega) k)) * x4 (ix2 k e))
    (h4 : ∀ (p : Fin 256) (e : Fin 384), G (ix2 p (col 384 2560 (by omega) e))
      = ∑ k : Fin 384, x0 (ix2 p (col 384 2560 (by omega) k)) * x5 (ix2 k e))
    (h5 : ∀ (p : Fin 256) (e : Fin 640), G (ix2 p (col 640 2944 (by omega) e))
      = ∑ k : Fin 640, x0 (ix2 p (col 640 2944 (by omega) k)) * x6 (ix2 k e))
    (h6 : ∀ (p : Fin 256) (e : Fin 128), G (ix2 p (col 128 3584 (by omega) e))
      = ∑ k : Fin 128, x0 (ix2 p (col 128 3584 (by omega) k)) * x7 (ix2 k e))
    (h7 : ∀ (p : Fin 256) (e : Fin 384), G (ix2 p (col 384 3712 (by omega) e))
      = ∑ k : Fin 384, x0 (ix2 p (col 384 3712 (by omega) k)) * x8 (ix2 k e)) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 = G := by
  funext y
  unfold out0_A_9
  refine View.read_writes_apply_of_pieces VO0_9 _ G _ ?_ y (cover0_A_9 c i arg1 harg1 arg2 harg2 arg3 harg3 arg4 harg4 arg5 harg5 arg6 harg6 arg7 harg7 arg8 harg8 arg9 harg9 arg10 harg10 x0 x1 x2 x3 x4 x5 x6 x7 x8 y)
  unfold kernelRun0_A
  dsimp only
  sl_unfold_words
  intro pc hpc
  simp only [List.mem_cons, List.not_mem_nil, or_false] at hpc
  rcases hpc with rfl | rfl | rfl | rfl | rfl | rfl | rfl | rfl
  · intro x
    refine slab_agrees (n := 384) (off := 3712) (by omega) Facts₀.inb_S256x4096_S256x384_0_3712 G _ (fun p e => ?_) x
    rw [h7 p e]
    simp only [View.readAt_eq_ld, harg1.read_unread, harg9.read_unread, View.ld_unit_zero (S := S384x384) hz]
    refine (Cert.Payloads.pay8_entry _ _ p e).trans ?_
    refine Finset.sum_congr rfl fun k _ => ?_
    exact congrArg (fun z => x0 z * x8 (ix2 k e)) (slab_emb (n := 384) (off := 3712) (by omega) Facts₀.inb_S256x4096_S256x384_0_3712 p k)
  · intro x
    refine slab_agrees (n := 128) (off := 3584) (by omega) Facts₀.inb_S256x4096_S256x128_0_3584 G _ (fun p e => ?_) x
    rw [h6 p e]
    simp only [View.readAt_eq_ld, harg1.read_unread, harg8.read_unread, View.ld_unit_zero (S := S128x128) hz]
    refine (Cert.Payloads.pay7_entry _ _ p e).trans ?_
    refine Finset.sum_congr rfl fun k _ => ?_
    exact congrArg (fun z => x0 z * x7 (ix2 k e)) (slab_emb (n := 128) (off := 3584) (by omega) Facts₀.inb_S256x4096_S256x128_0_3584 p k)
  · intro x
    refine slab_agrees (n := 640) (off := 2944) (by omega) Facts₀.inb_S256x4096_S256x640_0_2944 G _ (fun p e => ?_) x
    rw [h5 p e]
    simp only [View.readAt_eq_ld, harg1.read_unread, harg7.read_unread, View.ld_unit_zero (S := S640x640) hz]
    refine (Cert.Payloads.pay6_entry _ _ p e).trans ?_
    refine Finset.sum_congr rfl fun k _ => ?_
    exact congrArg (fun z => x0 z * x6 (ix2 k e)) (slab_emb (n := 640) (off := 2944) (by omega) Facts₀.inb_S256x4096_S256x640_0_2944 p k)
  · intro x
    refine slab_agrees (n := 384) (off := 2560) (by omega) Facts₀.inb_S256x4096_S256x384_0_2560 G _ (fun p e => ?_) x
    rw [h4 p e]
    simp only [View.readAt_eq_ld, harg1.read_unread, harg6.read_unread, View.ld_unit_zero (S := S384x384) hz]
    refine (Cert.Payloads.pay5_entry _ _ p e).trans ?_
    refine Finset.sum_congr rfl fun k _ => ?_
    exact congrArg (fun z => x0 z * x5 (ix2 k e)) (slab_emb (n := 384) (off := 2560) (by omega) Facts₀.inb_S256x4096_S256x384_0_2560 p k)
  · intro x
    refine slab_agrees (n := 768) (off := 1792) (by omega) Facts₀.inb_S256x4096_S256x768_0_1792 G _ (fun p e => ?_) x
    rw [h3 p e]
    simp only [View.readAt_eq_ld, harg1.read_unread, harg5.read_unread, View.ld_unit_zero (S := S768x768) hz]
    refine (Cert.Payloads.pay4_entry _ _ p e).trans ?_
    refine Finset.sum_congr rfl fun k _ => ?_
    exact congrArg (fun z => x0 z * x4 (ix2 k e)) (slab_emb (n := 768) (off := 1792) (by omega) Facts₀.inb_S256x4096_S256x768_0_1792 p k)
  · intro x
    refine slab_agrees (n := 256) (off := 1536) (by omega) Facts₀.inb_S256x4096_S256x256_0_1536 G _ (fun p e => ?_) x
    rw [h2 p e]
    simp only [View.readAt_eq_ld, harg1.read_unread, harg4.read_unread, View.ld_unit_zero (S := S256x256) hz]
    refine (Cert.Payloads.pay3_entry _ _ p e).trans ?_
    refine Finset.sum_congr rfl fun k _ => ?_
    exact congrArg (fun z => x0 z * x3 (ix2 k e)) (slab_emb (n := 256) (off := 1536) (by omega) Facts₀.inb_S256x4096_S256x256_0_1536 p k)
  · intro x
    refine slab_agrees (n := 1024) (off := 512) (by omega) Facts₀.inb_S256x4096_S256x1024_0_512 G _ (fun p e => ?_) x
    rw [h1 p e]
    simp only [View.readAt_eq_ld, harg1.read_unread, harg3.read_unread, View.ld_unit_zero (S := S1024x1024) hz]
    refine (Cert.Payloads.pay2_entry _ _ p e).trans ?_
    refine Finset.sum_congr rfl fun k _ => ?_
    exact congrArg (fun z => x0 z * x2 (ix2 k e)) (slab_emb (n := 1024) (off := 512) (by omega) Facts₀.inb_S256x4096_S256x1024_0_512 p k)
  · intro x
    refine slab_agrees (n := 512) (off := 0) (by omega) Facts₀.inb_S256x4096_S256x512_0_0 G _ (fun p e => ?_) x
    rw [h0 p e]
    simp only [View.readAt_eq_ld, harg1.read_unread, harg2.read_unread, View.ld_unit_zero (S := S512x512) hz]
    refine (Cert.Payloads.pay1_entry _ _ p e).trans ?_
    refine Finset.sum_congr rfl fun k _ => ?_
    exact congrArg (fun z => x0 z * x1 (ix2 k e)) (slab_emb (n := 512) (off := 0) (by omega) Facts₀.inb_S256x4096_S256x512_0_0 p k)

end Cert.Block

end
-- ==== Proof.Entry.lean ====
/-
  The arrays the kernel finds when it starts.

  Before the kernel runs, the host reshapes `x` from `[4, 2048, 4096]` to `[8192, 4096]` (the two leading axes merged
  into one list of rows) and, for each of the eight matrices, transposes it and narrows it to a shorter float format.
  No other operation touches these arrays before the kernel starts.
-/
import proofs.«163500_j58669253263997_2_alg».proof.Proof.Gen.KernelIdeal.Frame
import Idealize.ShloMosaic.PureOps.Ideal

noncomputable section

namespace Cert.Entry

open Idealize.ShloMosaic Idealize.ShloMosaic.TcCoe Idealize.SL.Sem Cert.KernelIdeal Cert.KernelIdeal.Gen

variable (m : (ℓ : Loc nD τ sig) → Buf (Elt Ideal) ℓ)

/-- The rows of `x`: the `[8192, 4096]` reshape of the first argument. -/
theorem rows_eq (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results
  rfl

/-- Matrix 0 as the kernel finds it: transposed, then narrowed. -/
theorem matrix0_eq (c : Dev nD) :
    (V m c main_v2 : Vec Ideal S512x512 .bf16)
      = truncf (F := Ideal) .bf16 (transpose S512x512 [1, 0] (m ((c : Thread nD τ).loc main_arg1) : Vec Ideal S512x512 .f32) transposes_S512x512_S512x512_1_0) bitsLt_bf16_f32 := by
  show StableHlo.after hostOps0 (fun b => m (c, b)) (Proc.devRef .tc main_v2) = _
  after_results

/-- Matrix 1 as the kernel finds it: transposed, then narrowed. -/
theorem matrix1_eq (c : Dev nD) :
    (V m c main_v4 : Vec Ideal S1024x1024 .bf16)
      = truncf (F := Ideal) .bf16 (transpose S1024x1024 [1, 0] (m ((c : Thread nD τ).loc main_arg2) : Vec Ideal S1024x1024 .f32) transposes_S1024x1024_S1024x1024_1_0) bitsLt_bf16_f32 := by
  show StableHlo.after hostOps0 (fun b => m (c, b)) (Proc.devRef .tc main_v4) = _
  after_results

/-- Matrix 2 as the kernel finds it: transposed, then narrowed. -/
theorem matrix2_eq (c : Dev nD) :
    (V m c main_v6 : Vec Ideal S256x256 .bf16)
      = truncf (F := Ideal) .bf16 (transpose S256x256 [1, 0] (m ((c : Thread nD τ).loc main_arg3) : Vec Ideal S256x256 .f32) transposes_S256x256_S256x256_1_0) bitsLt_bf16_f32 := by
  show StableHlo.after hostOps0 (fun b => m (c, b)) (Proc.devRef .tc main_v6) = _
  after_results

/-- Matrix 3 as the kernel finds it: transposed, then narrowed. -/
theorem matrix3_eq (c : Dev nD) :
    (V m c main_v8 : Vec Ideal S768x768 .bf16)
      = truncf (F := Ideal) .bf16 (transpose S768x768 [1, 0] (m ((c : Thread nD τ).loc main_arg4) : Vec Ideal S768x768 .f32) transposes_S768x768_S768x768_1_0) bitsLt_bf16_f32 := by
  show StableHlo.after hostOps0 (fun b => m (c, b)) (Proc.devRef .tc main_v8) = _
  after_results

/-- Matrix 4 as the kernel finds it: transposed, then narrowed. -/
theorem matrix4_eq (c : Dev nD) :
    (V m c main_v10 : Vec Ideal S384x384 .bf16)
      = truncf (F := Ideal) .bf16 (transpose S384x384 [1, 0] (m ((c : Thread nD τ).loc main_arg5) : Vec Ideal S384x384 .f32) transposes_S384x384_S384x384_1_0) bitsLt_bf16_f32 := by
  show StableHlo.after hostOps0 (fun b => m (c, b)) (Proc.devRef .tc main_v10) = _
  after_results

/-- Matrix 5 as the kernel finds it: transposed, then narrowed. -/
theorem matrix5_eq (c : Dev nD) :
    (V m c main_v12 : Vec Ideal S640x640 .bf16)
      = truncf (F := Ideal) .bf16 (transpose S640x640 [1, 0] (m ((c : Thread nD τ).loc main_arg6) : Vec Ideal S640x640 .f32) transposes_S640x640_S640x640_1_0) bitsLt_bf16_f32 := by
  show StableHlo.after hostOps0 (fun b => m (c, b)) (Proc.devRef .tc main_v12) = _
  after_results

/-- Matrix 6 as the kernel finds it: transposed, then narrowed. -/
theorem matrix6_eq (c : Dev nD) :
    (V m c main_v14 : Vec Ideal S128x128 .bf16)
      = truncf (F := Ideal) .bf16 (transpose S128x128 [1, 0] (m ((c : Thread nD τ).loc main_arg7) : Vec Ideal S128x128 .f32) transposes_S128x128_S128x128_1_0) bitsLt_bf16_f32 := by
  show StableHlo.after hostOps0 (fun b => m (c, b)) (Proc.devRef .tc main_v14) = _
  after_results

/-- Matrix 7 as the kernel finds it: transposed, then narrowed. -/
theorem matrix7_eq (c : Dev nD) :
    (V m c main_v16 : Vec Ideal S384x384 .bf16)
      = truncf (F := Ideal) .bf16 (transpose S384x384 [1, 0] (m ((c : Thread nD τ).loc main_arg8) : Vec Ideal S384x384 .f32) transposes_S384x384_S384x384_1_0) bitsLt_bf16_f32 := by
  show StableHlo.after hostOps0 (fun b => m (c, b)) (Proc.devRef .tc main_v16) = _
  after_results

end Cert.Entry

end
-- ==== Proof.LibFlatRows.lean ====
/-
  The leading two axes of a rank-3 array merged into one, and split again.

  An `[a, b, c]` array reshaped to `[n, c]` with `n = a · b` rows (`x.reshape(a * b, c)`: a batch of sequences laid out as
  one list of rows) holds at row `i · b + j`, column `k`, the entry `(i, j, k)`; an `[n, c]` matrix reshaped to `[a, b, c]`
  holds at `(i, j, k)` the entry at row `i · b + j`, column `k`. In both directions the two indices sit at the same
  row-major position. The row is passed as its own variable with the equation `r = i · b + j`, so that a caller whose row
  count is a literal (4096, not 2 · 2048) can use the lemmas as they stand.
-/
import Idealize.ShloMosaic.Lib.Pipeline.Value
import Idealize.ShloMosaic.Lib.ValueIdx

namespace Cert.FlatRows

open Idealize.ShloMosaic Idealize.ShloMosaic.ValueIdx

variable {α : Type}

/-- Rows merged: the `[n, c]` reshape of an `[a, b, c]` array reads, at `(r, k)` with `r = i · b + j`, the operand at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Rows split: the `[a, b, c]` reshape of an `[n, c]` matrix reads, at `(i, j, k)`, the operand at `(r, k)` with
    `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Cert.FlatRows
-- ==== Proof.Result.lean ====
/-
  The array the kernel leaves, and the result.

  The kernel runs at 32 grid points. At point `t` it reads rows `256 t` to `256 t + 255` of the `[8192, 4096]` rows of
  `x` and all eight matrices, and writes back the same rows of its output. Row `r` of the 8192 is entry
  `(r / 2048, r % 2048)` of the two leading axes of `x`. So the block written back at point `t` is rows `256 t` on of the
  block-diagonal product laid out as 8192 rows; the 32 blocks cover the array; and the host's last reshape, back to
  `[4, 2048, 4096]`, undoes the layout.
-/
import proofs.«163500_j58669253263997_2_alg».proof.Proof.Gen.KernelIdeal.Frame
import proofs.«163500_j58669253263997_2_alg».proof.Proof.Block
import proofs.«163500_j58669253263997_2_alg».proof.Proof.Entry
import proofs.«163500_j58669253263997_2_alg».proof.Proof.LibFlatRows
import Idealize.ShloMosaic.Lib.Pipeline.Value
import Idealize.ShloMosaic.Lib.Pipeline.FrameSuffix
import Idealize.ShloMosaic.Lib.StableHlo.Run

set_option maxRecDepth 16384

noncomputable section

namespace Cert.Result

open Idealize.ShloMosaic Idealize.ShloMosaic.ValueIdx Idealize.ShloMosaic.TcCoe Idealize.SL.Sem
open Idealize.ShloMosaic.Pipeline (Dat)
open Cert.KernelIdeal Cert.KernelIdeal.Gen Cert.BlockDiag

variable (m : (ℓ : Loc nD τ sig) → Buf (Elt Ideal) ℓ) (ρ : Dev nD → PrngReg)

/-! ## Rows -/

theorem lt32 (t : Fin cfg0.N) : t.val < 32 := lt_of_lt_of_eq t.isLt N_0

/-- Row `p` of the block at point `t`, among the 8192. -/
abbrev row (t : Fin cfg0.N) (p : Fin 256) : Fin 8192 :=
  ⟨256 * t.val + p.val, by have := lt32 t; have := p.isLt; omega⟩

/-- The first two coordinates of `x` that row `r` of the 8192 holds. -/
abbrev batch (r : Fin 8192) : Fin 4 := ⟨r.val / 2048, by have := r.isLt; omega⟩
abbrev pos (r : Fin 8192) : Fin 2048 := ⟨r.val % 2048, by omega⟩

theorem row_split (r : Fin 8192) : r.val = (batch r).val * 2048 + (pos r).val := by
  show r.val = r.val / 2048 * 2048 + r.val % 2048
  omega

/-- The block-diagonal product of the argument arrays, laid out as 8192 rows. -/
def flat (c : Dev nD) : S8192x4096.Idx → EReal :=
  shapeCast S8192x4096 (whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S4x2048x4096_S8192x4096

theorem flat_read (c : Dev nD) (r : Fin 8192) (q : Fin 4096) :
    flat m c (ix2 r q) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (batch r) (pos r) q) := by
  unfold flat
  exact Cert.FlatRows.shapeCast_abc_nc_apply _ _ (batch r) (pos r) q r (row_split r)

/-! ## The windows' block indices -/

/-- The printed index maps over the grid: the rows of `x` and of the output move with the point, every matrix stays. -/
theorem idx_facts : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## What the body loads at point `t` -/

/-- The input block at point `t`: rows `256 t` on of `x`. -/
theorem x_read (c : Dev nD) (t : Fin cfg0.N) (p : Fin 256) (q : Fin 4096) :
    iblk m c 0 t (ix2 p q) = m ((c : Thread nD τ).loc main_arg0) (ix3 (batch (row t p)) (pos (row t p)) q) := by
  obtain ⟨e0, e1, -⟩ := idx_facts t
  unfold iblk
  rw [View.read_apply]
  show V m c main_v0 (((cfg0.win 0).blk t).view.emb (ix2 p q)) = _
  rw [show ((cfg0.win 0).blk t).view.emb (ix2 p q) = ix2 (row t p) q from funext fun a => Fin.ext (by
    match a with
    | ⟨0, _⟩ => show win0_0.index t (0 : Fin 2) * 256 + 1 * p.val = 256 * t.val + p.val; rw [e0]; omega
    | ⟨1, _⟩ => show win0_0.index t (1 : Fin 2) * 4096 + 1 * q.val = q.val; rw [e1]; omega)]
  rw [Cert.Entry.rows_eq]
  exact Cert.FlatRows.shapeCast_abc_nc_apply _ _ (batch (row t p)) (pos (row t p)) q (row t p) (row_split (row t p))

/-- Matrix 0 as the body loads it, at `(k, e)`: the argument's entry `(e, k)`. -/
theorem w0_read (c : Dev nD) (t : Fin cfg0.N) (k e : Fin 512) :
    iblk m c 1 t (ix2 k e) = m ((c : Thread nD τ).loc main_arg1) (ix2 e k) := by
  have hf := idx_facts t
  have e0 : win0_1.index t (0 : Fin 2) = 0 := hf.2.2.2.2.1
  have e1 : win0_1.index t (1 : Fin 2) = 0 := hf.2.2.2.2.2.1
  unfold iblk
  rw [View.read_apply]
  show V m c main_v2 (((cfg0.win 1).blk t).view.emb (ix2 k e)) = _
  rw [show ((cfg0.win 1).blk t).view.emb (ix2 k e) = ix2 k e from funext fun a => Fin.ext (by
    match a with
    | ⟨0, _⟩ => show win0_1.index t (0 : Fin 2) * 512 + 1 * k.val = k.val; rw [e0]; omega
    | ⟨1, _⟩ => show win0_1.index t (1 : Fin 2) * 512 + 1 * e.val = e.val; rw [e1]; omega)]
  rw [Cert.Entry.matrix0_eq]
  exact transpose_apply [1, 0] _ _ (ix2 k e) (ix2 e k) (fun b => by
    match b with
    | ⟨0, _⟩ => rfl
    | ⟨1, _⟩ => rfl)

/-- Matrix 1 as the body loads it, at `(k, e)`: the argument's entry `(e, k)`. -/
theorem w1_read (c : Dev nD) (t : Fin cfg0.N) (k e : Fin 1024) :
    iblk m c 2 t (ix2 k e) = m ((c : Thread nD τ).loc main_arg2) (ix2 e k) := by
  have hf := idx_facts t
  have e0 : win0_2.index t (0 : Fin 2) = 0 := hf.2.2.2.2.2.2.1
  have e1 : win0_2.index t (1 : Fin 2) = 0 := hf.2.2.2.2.2.2.2.1
  unfold iblk
  rw [View.read_apply]
  show V m c main_v4 (((cfg0.win 2).blk t).view.emb (ix2 k e)) = _
  rw [show ((cfg0.win 2).blk t).view.emb (ix2 k e) = ix2 k e from funext fun a => Fin.ext (by
    match a with
    | ⟨0, _⟩ => show win0_2.index t (0 : Fin 2) * 1024 + 1 * k.val = k.val; rw [e0]; omega
    | ⟨1, _⟩ => show win0_2.index t (1 : Fin 2) * 1024 + 1 * e.val = e.val; rw [e1]; omega)]
  rw [Cert.Entry.matrix1_eq]
  exact transpose_apply [1, 0] _ _ (ix2 k e) (ix2 e k) (fun b => by
    match b with
    | ⟨0, _⟩ => rfl
    | ⟨1, _⟩ => rfl)

/-- Matrix 2 as the body loads it, at `(k, e)`: the argument's entry `(e, k)`. -/
theorem w2_read (c : Dev nD) (t : Fin cfg0.N) (k e : Fin 256) :
    iblk m c 3 t (ix2 k e) = m ((c : Thread nD τ).loc main_arg3) (ix2 e k) := by
  have hf := idx_facts t
  have e0 : win0_3.index t (0 : Fin 2) = 0 := hf.2.2.2.2.2.2.2.2.1
  have e1 : win0_3.index t (1 : Fin 2) = 0 := hf.2.2.2.2.2.2.2.2.2.1
  unfold iblk
  rw [View.read_apply]
  show V m c main_v6 (((cfg0.win 3).blk t).view.emb (ix2 k e)) = _
  rw [show ((cfg0.win 3).blk t).view.emb (ix2 k e) = ix2 k e from funext fun a => Fin.ext (by
    match a with
    | ⟨0, _⟩ => show win0_3.index t (0 : Fin 2) * 256 + 1 * k.val = k.val; rw [e0]; omega
    | ⟨1, _⟩ => show win0_3.index t (1 : Fin 2) * 256 + 1 * e.val = e.val; rw [e1]; omega)]
  rw [Cert.Entry.matrix2_eq]
  exact transpose_apply [1, 0] _ _ (ix2 k e) (ix2 e k) (fun b => by
    match b with
    | ⟨0, _⟩ => rfl
    | ⟨1, _⟩ => rfl)

/-- Matrix 3 as the body loads it, at `(k, e)`: the argument's entry `(e, k)`. -/
theorem w3_read (c : Dev nD) (t : Fin cfg0.N) (k e : Fin 768) :
    iblk m c 4 t (ix2 k e) = m ((c : Thread nD τ).loc main_arg4) (ix2 e k) := by
  have hf := idx_facts t
  have e0 : win0_4.index t (0 : Fin 2) = 0 := hf.2.2.2.2.2.2.2.2.2.2.1
  have e1 : win0_4.index t (1 : Fin 2) = 0 := hf.2.2.2.2.2.2.2.2.2.2.2.1
  unfold iblk
  rw [View.read_apply]
  show V m c main_v8 (((cfg0.win 4).blk t).view.emb (ix2 k e)) = _
  rw [show ((cfg0.win 4).blk t).view.emb (ix2 k e) = ix2 k e from funext fun a => Fin.ext (by
    match a with
    | ⟨0, _⟩ => show win0_4.index t (0 : Fin 2) * 768 + 1 * k.val = k.val; rw [e0]; omega
    | ⟨1, _⟩ => show win0_4.index t (1 : Fin 2) * 768 + 1 * e.val = e.val; rw [e1]; omega)]
  rw [Cert.Entry.matrix3_eq]
  exact transpose_apply [1, 0] _ _ (ix2 k e) (ix2 e k) (fun b => by
    match b with
    | ⟨0, _⟩ => rfl
    | ⟨1, _⟩ => rfl)

/-- Matrix 4 as the body loads it, at `(k, e)`: the argument's entry `(e, k)`. -/
theorem w4_read (c : Dev nD) (t : Fin cfg0.N) (k e : Fin 384) :
    iblk m c 5 t (ix2 k e) = m ((c : Thread nD τ).loc main_arg5) (ix2 e k) := by
  have hf := idx_facts t
  have e0 : win0_5.index t (0 : Fin 2) = 0 := hf.2.2.2.2.2.2.2.2.2.2.2.2.1
  have e1 : win0_5.index t (1 : Fin 2) = 0 := hf.2.2.2.2.2.2.2.2.2.2.2.2.2.1
  unfold iblk
  rw [View.read_apply]
  show V m c main_v10 (((cfg0.win 5).blk t).view.emb (ix2 k e)) = _
  rw [show ((cfg0.win 5).blk t).view.emb (ix2 k e) = ix2 k e from funext fun a => Fin.ext (by
    match a with
    | ⟨0, _⟩ => show win0_5.index t (0 : Fin 2) * 384 + 1 * k.val = k.val; rw [e0]; omega
    | ⟨1, _⟩ => show win0_5.index t (1 : Fin 2) * 384 + 1 * e.val = e.val; rw [e1]; omega)]
  rw [Cert.Entry.matrix4_eq]
  exact transpose_apply [1, 0] _ _ (ix2 k e) (ix2 e k) (fun b => by
    match b with
    | ⟨0, _⟩ => rfl
    | ⟨1, _⟩ => rfl)

/-- Matrix 5 as the body loads it, at `(k, e)`: the argument's entry `(e, k)`. -/
theorem w5_read (c : Dev nD) (t : Fin cfg0.N) (k e : Fin 640) :
    iblk m c 6 t (ix2 k e) = m ((c : Thread nD τ).loc main_arg6) (ix2 e k) := by
  have hf := idx_facts t
  have e0 : win0_6.index t (0 : Fin 2) = 0 := hf.2.2.2.2.2.2.2.2.2.2.2.2.2.2.1
  have e1 : win0_6.index t (1 : Fin 2) = 0 := hf.2.2.2.2.2.2.2.2.2.2.2.2.2.2.2.1
  unfold iblk
  rw [View.read_apply]
  show V m c main_v12 (((cfg0.win 6).blk t).view.emb (ix2 k e)) = _
  rw [show ((cfg0.win 6).blk t).view.emb (ix2 k e) = ix2 k e from funext fun a => Fin.ext (by
    match a with
    | ⟨0, _⟩ => show win0_6.index t (0 : Fin 2) * 640 + 1 * k.val = k.val; rw [e0]; omega
    | ⟨1, _⟩ => show win0_6.index t (1 : Fin 2) * 640 + 1 * e.val = e.val; rw [e1]; omega)]
  rw [Cert.Entry.matrix5_eq]
  exact transpose_apply [1, 0] _ _ (ix2 k e) (ix2 e k) (fun b => by
    match b with
    | ⟨0, _⟩ => rfl
    | ⟨1, _⟩ => rfl)

/-- Matrix 6 as the body loads it, at `(k, e)`: the argument's entry `(e, k)`. -/
theorem w6_read (c : Dev nD) (t : Fin cfg0.N) (k e : Fin 128) :
    iblk m c 7 t (ix2 k e) = m ((c : Thread nD τ).loc main_arg7) (ix2 e k) := by
  have hf := idx_facts t
  have e0 : win0_7.index t (0 : Fin 2) = 0 := hf.2.2.2.2.2.2.2.2.2.2.2.2.2.2.2.2.1
  have e1 : win0_7.index t (1 : Fin 2) = 0 := hf.2.2.2.2.2.2.2.2.2.2.2.2.2.2.2.2.2.1
  unfold iblk
  rw [View.read_apply]
  show V m c main_v14 (((cfg0.win 7).blk t).view.emb (ix2 k e)) = _
  rw [show ((cfg0.win 7).blk t).view.emb (ix2 k e) = ix2 k e from funext fun a => Fin.ext (by
    match a with
    | ⟨0, _⟩ => show win0_7.index t (0 : Fin 2) * 128 + 1 * k.val = k.val; rw [e0]; omega
    | ⟨1, _⟩ => show win0_7.index t (1 : Fin 2) * 128 + 1 * e.val = e.val; rw [e1]; omega)]
  rw [Cert.Entry.matrix6_eq]
  exact transpose_apply [1, 0] _ _ (ix2 k e) (ix2 e k) (fun b => by
    match b with
    | ⟨0, _⟩ => rfl
    | ⟨1, _⟩ => rfl)

/-- Matrix 7 as the body loads it, at `(k, e)`: the argument's entry `(e, k)`. -/
theorem w7_read (c : Dev nD) (t : Fin cfg0.N) (k e : Fin 384) :
    iblk m c 8 t (ix2 k e) = m ((c : Thread nD τ).loc main_arg8) (ix2 e k) := by
  have hf := idx_facts t
  have e0 : win0_8.index t (0 : Fin 2) = 0 := hf.2.2.2.2.2.2.2.2.2.2.2.2.2.2.2.2.2.2.1
  have e1 : win0_8.index t (1 : Fin 2) = 0 := hf.2.2.2.2.2.2.2.2.2.2.2.2.2.2.2.2.2.2.2
  unfold iblk
  rw [View.read_apply]
  show V m c main_v16 (((cfg0.win 8).blk t).view.emb (ix2 k e)) = _
  rw [show ((cfg0.win 8).blk t).view.emb (ix2 k e) = ix2 k e from funext fun a => Fin.ext (by
    match a with
    | ⟨0, _⟩ => show win0_8.index t (0 : Fin 2) * 384 + 1 * k.val = k.val; rw [e0]; omega
    | ⟨1, _⟩ => show win0_8.index t (1 : Fin 2) * 384 + 1 * e.val = e.val; rw [e1]; omega)]
  rw [Cert.Entry.matrix7_eq]
  exact transpose_apply [1, 0] _ _ (ix2 k e) (ix2 e k) (fun b => by
    match b with
    | ⟨0, _⟩ => rfl
    | ⟨1, _⟩ => rfl)

/-! ## The loaded blocks, typed as the body takes them -/

/-- The input block at point `t`. -/
abbrev xblk (c : Dev nD) (t : Fin cfg0.N) : Vec Ideal S256x4096 .f32 := iblk m c 0 t
/-- Matrix 0 as loaded at point `t`. -/
abbrev wblk0 (c : Dev nD) (t : Fin cfg0.N) : Vec Ideal S512x512 .bf16 := iblk m c 1 t
/-- Matrix 1 as loaded at point `t`. -/
abbrev wblk1 (c : Dev nD) (t : Fin cfg0.N) : Vec Ideal S1024x1024 .bf16 := iblk m c 2 t
/-- Matrix 2 as loaded at point `t`. -/
abbrev wblk2 (c : Dev nD) (t : Fin cfg0.N) : Vec Ideal S256x256 .bf16 := iblk m c 3 t
/-- Matrix 3 as loaded at point `t`. -/
abbrev wblk3 (c : Dev nD) (t : Fin cfg0.N) : Vec Ideal S768x768 .bf16 := iblk m c 4 t
/-- Matrix 4 as loaded at point `t`. -/
abbrev wblk4 (c : Dev nD) (t : Fin cfg0.N) : Vec Ideal S384x384 .bf16 := iblk m c 5 t
/-- Matrix 5 as loaded at point `t`. -/
abbrev wblk5 (c : Dev nD) (t : Fin cfg0.N) : Vec Ideal S640x640 .bf16 := iblk m c 6 t
/-- Matrix 6 as loaded at point `t`. -/
abbrev wblk6 (c : Dev nD) (t : Fin cfg0.N) : Vec Ideal S128x128 .bf16 := iblk m c 7 t
/-- Matrix 7 as loaded at point `t`. -/
abbrev wblk7 (c : Dev nD) (t : Fin cfg0.N) : Vec Ideal S384x384 .bf16 := iblk m c 8 t

/-! ## The block written back at point `t` -/

/-- Rows `256 t` on of the product, as a function of the block index. -/
def blockOf (c : Dev nD) (t : Fin cfg0.N) : S256x4096.Idx → EReal :=
  fun y => flat m c (ix2 (row t (y 0 : Fin 256)) (y 1 : Fin 4096))

/-- On span 0's columns those rows are the sum over the span of the loaded block against the loaded matrix. -/
theorem span0_ok (c : Dev nD) (t : Fin cfg0.N) (p : Fin 256) (e : Fin 512) :
    blockOf m c t (ix2 p (col 512 0 (by omega) e))
      = ∑ k : Fin 512, xblk m c t (ix2 p (col 512 0 (by omega) k)) * wblk0 m c t (ix2 k e) := by
  show flat m c (ix2 (row t p) (col 512 0 (by omega) e)) = _
  rw [flat_read, whole_span0]
  refine Finset.sum_congr rfl fun k _ => ?_
  unfold xblk wblk0
  rw [x_read, w0_read]

/-- On span 1's columns those rows are the sum over the span of the loaded block against the loaded matrix. -/
theorem span1_ok (c : Dev nD) (t : Fin cfg0.N) (p : Fin 256) (e : Fin 1024) :
    blockOf m c t (ix2 p (col 1024 512 (by omega) e))
      = ∑ k : Fin 1024, xblk m c t (ix2 p (col 1024 512 (by omega) k)) * wblk1 m c t (ix2 k e) := by
  show flat m c (ix2 (row t p) (col 1024 512 (by omega) e)) = _
  rw [flat_read, whole_span1]
  refine Finset.sum_congr rfl fun k _ => ?_
  unfold xblk wblk1
  rw [x_read, w1_read]

/-- On span 2's columns those rows are the sum over the span of the loaded block against the loaded matrix. -/
theorem span2_ok (c : Dev nD) (t : Fin cfg0.N) (p : Fin 256) (e : Fin 256) :
    blockOf m c t (ix2 p (col 256 1536 (by omega) e))
      = ∑ k : Fin 256, xblk m c t (ix2 p (col 256 1536 (by omega) k)) * wblk2 m c t (ix2 k e) := by
  show flat m c (ix2 (row t p) (col 256 1536 (by omega) e)) = _
  rw [flat_read, whole_span2]
  refine Finset.sum_congr rfl fun k _ => ?_
  unfold xblk wblk2
  rw [x_read, w2_read]

/-- On span 3's columns those rows are the sum over the span of the loaded block against the loaded matrix. -/
theorem span3_ok (c : Dev nD) (t : Fin cfg0.N) (p : Fin 256) (e : Fin 768) :
    blockOf m c t (ix2 p (col 768 1792 (by omega) e))
      = ∑ k : Fin 768, xblk m c t (ix2 p (col 768 1792 (by omega) k)) * wblk3 m c t (ix2 k e) := by
  show flat m c (ix2 (row t p) (col 768 1792 (by omega) e)) = _
  rw [flat_read, whole_span3]
  refine Finset.sum_congr rfl fun k _ => ?_
  unfold xblk wblk3
  rw [x_read, w3_read]

/-- On span 4's columns those rows are the sum over the span of the loaded block against the loaded matrix. -/
theorem span4_ok (c : Dev nD) (t : Fin cfg0.N) (p : Fin 256) (e : Fin 384) :
    blockOf m c t (ix2 p (col 384 2560 (by omega) e))
      = ∑ k : Fin 384, xblk m c t (ix2 p (col 384 2560 (by omega) k)) * wblk4 m c t (ix2 k e) := by
  show flat m c (ix2 (row t p) (col 384 2560 (by omega) e)) = _
  rw [flat_read, whole_span4]
  refine Finset.sum_congr rfl fun k _ => ?_
  unfold xblk wblk4
  rw [x_read, w4_read]

/-- On span 5's columns those rows are the sum over the span of the loaded block against the loaded matrix. -/
theorem span5_ok (c : Dev nD) (t : Fin cfg0.N) (p : Fin 256) (e : Fin 640) :
    blockOf m c t (ix2 p (col 640 2944 (by omega) e))
      = ∑ k : Fin 640, xblk m c t (ix2 p (col 640 2944 (by omega) k)) * wblk5 m c t (ix2 k e) := by
  show flat m c (ix2 (row t p) (col 640 2944 (by omega) e)) = _
  rw [flat_read, whole_span5]
  refine Finset.sum_congr rfl fun k _ => ?_
  unfold xblk wblk5
  rw [x_read, w5_read]

/-- On span 6's columns those rows are the sum over the span of the loaded block against the loaded matrix. -/
theorem span6_ok (c : Dev nD) (t : Fin cfg0.N) (p : Fin 256) (e : Fin 128) :
    blockOf m c t (ix2 p (col 128 3584 (by omega) e))
      = ∑ k : Fin 128, xblk m c t (ix2 p (col 128 3584 (by omega) k)) * wblk6 m c t (ix2 k e) := by
  show flat m c (ix2 (row t p) (col 128 3584 (by omega) e)) = _
  rw [flat_read, whole_span6]
  refine Finset.sum_congr rfl fun k _ => ?_
  unfold xblk wblk6
  rw [x_read, w6_read]

/-- On span 7's columns those rows are the sum over the span of the loaded block against the loaded matrix. -/
theorem span7_ok (c : Dev nD) (t : Fin cfg0.N) (p : Fin 256) (e : Fin 384) :
    blockOf m c t (ix2 p (col 384 3712 (by omega) e))
      = ∑ k : Fin 384, xblk m c t (ix2 p (col 384 3712 (by omega) k)) * wblk7 m c t (ix2 k e) := by
  show flat m c (ix2 (row t p) (col 384 3712 (by omega) e)) = _
  rw [flat_read, whole_span7]
  refine Finset.sum_congr rfl fun k _ => ?_
  unfold xblk wblk7
  rw [x_read, w7_read]

/-- What point `t` writes back is block `t` of the product's rows. -/
theorem flushed_eq (c : Dev nD) (t : Fin cfg0.N) :
    (dats m 0 c).flushed 9 t = ((cfg0.win 9).blk t).view.read (Elt Ideal) (flat m c) := by
  show (cfg0.win 9).cut (grid0.coords t) ((dats m 0 c).after 9 t) = _
  rw [after0_9]
  unfold outsAt0
  rw [Cert.Block.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t) (blockOf m c t)
    (span0_ok m c t) (span1_ok m c t) (span2_ok m c t) (span3_ok m c t) (span4_ok m c t) (span5_ok m c t) (span6_ok m c t) (span7_ok m c t)]
  obtain ⟨-, -, e0, e1, -⟩ := idx_facts t
  funext j
  rw [View.read_apply]
  show flat m c (ix2 (row t (j 0 : Fin 256)) (j 1 : Fin 4096)) = flat m c (((cfg0.win 9).blk t).view.emb j)
  congr 1
  funext a
  apply Fin.ext
  match a with
  | ⟨0, _⟩ => show 256 * t.val + (j 0).val = win0_9.index t (0 : Fin 2) * 256 + 1 * (j 0).val; rw [e0]; omega
  | ⟨1, _⟩ => show (j 1).val = win0_9.index t (1 : Fin 2) * 4096 + 1 * (j 1).val; rw [e1]; omega

/-! ## The 32 blocks cover the array -/

theorem mem_blk (t : Fin cfg0.N) (i : S8192x4096.Idx) :
    i ∈ ((cfg0.win 9).blk t).view.set ↔ ∀ a : Fin 2, win0_9.index t a * S256x4096.size a ≤ (i a).val
      ∧ (i a).val < win0_9.index t a * S256x4096.size a + S256x4096.size a := by
  show i ∈ ((View.whole main_v17).slice (win0_9.rect t)).set ↔ _
  rw [View.set_slice_whole, Rect.mem_set_unit]
  exact Iff.rfl

/-- Row `r` is in the block of point `r / 256`. -/
theorem cover (i : S8192x4096.Idx) :
    ∃ t : Fin cfg0.N, (cfg0.win 9).flush t = true ∧ i ∈ ((cfg0.win 9).blk t).view.set := by
  have hi0 : (i 0).val < 8192 := (i 0).isLt
  have hi1 : (i 1).val < 4096 := (i 1).isLt
  have hN : cfg0.N = 32 := N_0
  have hlt : (i 0).val / 256 < cfg0.N := by rw [hN]; omega
  refine ⟨⟨(i 0).val / 256, hlt⟩, flush0_9 _, ?_⟩
  obtain ⟨-, -, e0, e1, -⟩ := idx_facts ⟨(i 0).val / 256, hlt⟩
  rw [mem_blk]
  intro a
  match a with
  | ⟨0, _⟩ =>
    show win0_9.index ⟨(i 0).val / 256, hlt⟩ (0 : Fin 2) * 256 ≤ (i 0).val
      ∧ (i 0).val < win0_9.index ⟨(i 0).val / 256, hlt⟩ (0 : Fin 2) * 256 + 256
    rw [e0]
    show (i 0).val / 256 * 256 ≤ (i 0).val ∧ (i 0).val < (i 0).val / 256 * 256 + 256
    omega
  | ⟨1, _⟩ =>
    show win0_9.index ⟨(i 0).val / 256, hlt⟩ (1 : Fin 2) * 4096 ≤ (i 1).val
      ∧ (i 1).val < win0_9.index ⟨(i 0).val / 256, hlt⟩ (1 : Fin 2) * 4096 + 4096
    rw [e1]
    omega

/-- The output array after the last point: the product's rows. -/
theorem final (c : Dev nD) : (dats m 0 c).arrAt 9 cfg0.N = flat m c :=
  (dats m 0 c).arrAt_eq_of_cover 9 (flat m c) (fun t _ => flushed_eq m c t) (cover)

end Cert.Result

end
-- ==== Proof.KernelRun.lean ====
/-
  The kernel's run, read at its result.

  After the kernel the host reshapes the `[8192, 4096]` output back to `[4, 2048, 4096]`. The output holds the
  block-diagonal product laid out as 8192 rows, and that layout is the inverse reshape, so the result is the
  block-diagonal product itself. No operation after the kernel writes an argument.
-/
import proofs.«163500_j58669253263997_2_alg».proof.Proof.Result

set_option maxRecDepth 16384

noncomputable section

namespace Cert.KernelRun

open Idealize.ShloMosaic Idealize.ShloMosaic.ValueIdx Idealize.ShloMosaic.TcCoe Idealize.SL.Sem
open Idealize.ShloMosaic.Pipeline (Dat)
open Cert.KernelIdeal Cert.KernelIdeal.Gen Cert.BlockDiag Cert.Result

variable (m : (ℓ : Loc nD τ sig) → Buf (Elt Ideal) ℓ) (ρ : Dev nD → PrngReg)

/-- What the host's last line sees in the kernel's output array: the product's rows. -/
theorem output_eq (c : Dev nD) :
    Pipeline.withArrays (cfgs 0).spec c (V0 m c) (fun w => (dats m 0 c).arrAt w (cfgs 0).N) (Proc.devRef .tc main_v17)
      = flat m c :=
  (Pipeline.withArrays_arr spec0 launch0.win.arr_inj c _ _ 9).trans (final m c)

/-- The result buffer after the host's last line: the block-diagonal product of the arguments. -/
theorem result_eq (c : Dev nD) :
    Pipeline.afterTail₀ cfgs (dats m) 0 (V0 m) [hostOps1] c main_v18
      = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v18) = _
  after_results
  show shapeCast S4x2048x4096 (Pipeline.withArrays (cfgs 0).spec c (V0 m c) (fun w => (dats m 0 c).arrAt w (cfgs 0).N)
    (Proc.devRef .tc main_v17)) shapeCasts_S8192x4096_S4x2048x4096 = _
  rw [output_eq]
  unfold flat
  exact shapeCast_shapeCast _ _ _

/-- Every weakly fair execution of the idealized kernel terminates with the result at the block-diagonal product of the
    arguments and the arguments unchanged. -/
theorem run : θ_run defs (onTc (τ := τ) (main (F := Ideal))) ⟨m, fun _ => 0, ρ⟩ fun r => ∀ c : Dev nD,
      r.2.mem ((c : Thread nD τ).loc main_v18) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelRun

end
-- ==== Proof.lean ====
/-
  The kernel multiplies the last axis of `x` by a block-diagonal matrix: eight spans of columns, each with its own square
  matrix, `out[b, s, off_i + e] = ∑ k, x[b, s, off_i + k] · w_i[e, k]`. It reshapes `x` to 8192 rows, runs over 32 blocks
  of 256 rows, multiplies each span's slab by the transposed matrix into a zero accumulator, and reshapes back. The
  reference slices the spans out of `x`, contracts each with its matrix, and joins the results.

  On the extended reals the narrowing of the operands to a shorter float format is the identity and a product into a
  zero accumulator is the plain sum, so both programs compute the same sum of the same terms at every index: no law of
  arithmetic beyond that is used, and the precondition is not needed for the values.

  The three frames are the generated ones (the reference's is its generated run with the result dropped); the kernel's
  idealization rewrote nothing; the value claim puts the kernel's run and the reference's run side by side at the
  block-diagonal product of the arguments.
-/
import proofs.«163500_j58669253263997_2_alg».proof.Defs
import proofs.«163500_j58669253263997_2_alg».proof.Proof.Gen.Kernel
import proofs.«163500_j58669253263997_2_alg».proof.Proof.Gen.Kernel.Frame
import proofs.«163500_j58669253263997_2_alg».proof.Proof.Gen.KernelIdeal
import proofs.«163500_j58669253263997_2_alg».proof.Proof.Gen.KernelIdeal.Frame
import proofs.«163500_j58669253263997_2_alg».proof.Proof.Gen.ReferenceIdeal
import proofs.«163500_j58669253263997_2_alg».proof.Proof.Gen.ReferenceIdeal.Run
import proofs.«163500_j58669253263997_2_alg».proof.Proof.Gen.ReferenceIdeal.Read
import proofs.«163500_j58669253263997_2_alg».proof.Proof.Gen.Pre_finite_inputs
import proofs.«163500_j58669253263997_2_alg».proof.Proof.RefSide
import proofs.«163500_j58669253263997_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Both runs end with the block-diagonal product of the arguments: the kernel's by its run read at the result, the
    reference's by its generated run, whose term is that product, at arguments that agree. -/
theorem algebraic : Cert.algebraic_KernelIdeal_ReferenceIdeal := by
  intro m ρ m' ρ' _ hagree
  refine ⟨_, Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v16_eq, Cert.RefSide.result_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
